-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x2x128x128 : Shape := ⟨4, ![3, 2, 128, 128]⟩
abbrev S3x2x128 : Shape := ⟨3, ![3, 2, 128]⟩
abbrev S256x2 : Shape := ⟨2, ![256, 2]⟩
abbrev S2 : Shape := ⟨1, ![2]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S3x2x128 : S_.BroadcastsInDim S3x2x128 (![] : Fin 0 → Fin S3x2x128.rank)
  reducesTo_S3x2x128_S_d0_1_2 : S3x2x128.ReducesTo [0, 1, 2] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S3x2x128x128 .f32) (main_arg5 : FVec F S256x2 .f32) (main_arg6 : FVec F S2 .f32) (main_v13 : IVec S_ 1) (main_v16 : IVec S3x2x128 1) : IVec S_ 1 :=
  let main_c_5 : IVec S_ 1 := constantI S_ 1 1#1
  let main_v17 : IVec S_ 1 := (fun x v => Host.reduce IntOp.andi x v reducesTo_S3x2x128_S_d0_1_2 h_S_) main_v16 main_c_5
  let main_v18 : IVec S_ 1 := andi main_v13 main_v17
  let main_v19 : FVec F S3x2x128x128 .f32 := Host.absf main_arg4
  let main_cst_6 : FVec F S_ .f32 := constant S_ .f32 0x7F800000#32
  let main_v20 : FVec F S3x2x128x128 .f32 := broadcastInDim S3x2x128x128 ![] bcast_S_S3x2x128x128 main_cst_6
  let main_v21 : IVec S3x2x128x128 1 := cmpf .olt main_v19 main_v20
  let main_c_7 : IVec S_ 1 := constantI S_ 1 1#1
  let main_v22 : IVec S_ 1 := (fun x v => Host.reduce IntOp.andi x v reducesTo_S3x2x128x128_S_d0_1_2_3 h_S_) main_v21 main_c_7
  let main_v23 : IVec S_ 1 := andi main_v18 main_v22
  let main_v24 : FVec F S256x2 .f32 := Host.absf main_arg5
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : FVec F S50000x128 .f32) (main_arg2 : FVec F S3x2x128x128 .f32) (main_arg3 : FVec F S3x2x128 .f32) (main_arg4 : FVec F S3x2x128x128 .f32) (main_arg5 : FVec F S256x2 .f32) (main_arg6 : FVec F S2 .f32) (main_arg7 : IVec S2x800000 32) (main_arg8 : IVec S2x800000 32) (main_arg9 : IVec S50000 32) (main_arg10 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S3x2x128x128 .f32 := Host.absf main_arg2
  let main_cst_2 : FVec F S_ .f32 := constant S_ .f32 0x7F800000#32
  let main_v10 : FVec F S3x2x128x128 .f32 := broadcastInDim S3x2x128x128 ![] bcast_S_S3x2x128x128 main_cst_2
  let main_v11 : IVec S3x2x128x128 1 := cmpf .olt main_v9 main_v10
  let main_c_3 : IVec S_ 1 := constantI S_ 1 1#1
  let main_v12 : IVec S_ 1 := (fun x v => Host.reduce IntOp.andi x v reducesTo_S3x2x128x128_S_d0_1_2_3 h_S_) main_v11 main_c_3
  let main_v13 : IVec S_ 1 := andi main_v8 main_v12
  let main_v14 : FVec F S3x2x128 .f32 := Host.absf main_arg3
  let main_cst_4 : FVec F S_ .f32 := constant S_ .f32 0x7F800000#32
  let main_v15 : FVec F S3x2x128 .f32 := broadcastInDim S3x2x128 ![] bcast_S_S3x2x128 main_cst_4
  let main_v16 : IVec S3x2x128 1 := cmpf .olt main_v14 main_v15
  fn_part1 (F := F) main_arg4 main_arg5 main_arg6 main_v13 main_v16
-- ==== Kernel.lean ====
abbrev S50000x128 : Shape := ⟨2, ![50000, 128]⟩
abbrev S3x2x128x128 : Shape := ⟨4, ![3, 2, 128, 128]⟩
abbrev S3x2x128 : Shape := ⟨3, ![3, 2, 128]⟩
abbrev S256x2 : Shape := ⟨2, ![256, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S2000x128 : Shape := ⟨2, ![2000, 128]⟩
abbrev S2000x1 : Shape := ⟨2, ![2000, 1]⟩
abbrev S16x128 : Shape := ⟨2, ![16, 128]⟩
abbrev S16 : Shape := ⟨1, ![16]⟩
abbrev S16x1 : Shape := ⟨2, ![16, 1]⟩
abbrev S16x256 : Shape := ⟨2, ![16, 256]⟩
abbrev S16x2 : Shape := ⟨2, ![16, 2]⟩
abbrev S1x2 : Shape := ⟨2, ![1, 2]⟩

abbrev nBuf : Space → Nat
  | .hbm => 276
  | .vmem => 66
  | .smem => 0
  | _ => 0

abbrev hbmTy0_0 (i : Nat) : BufTy := match i % 128 with
  | 0 => ⟨S50000x128, .f32⟩
  | 1 => ⟨S50000x128, .f32⟩
  | 2 => ⟨S3x2x128x128, .f32⟩
  | 3 => ⟨S3x2x128, .f32⟩
  | 4 => ⟨S3x2x128x128, .f32⟩
  | 5 => ⟨S256x2, .f32⟩
  | 6 => ⟨S2, .f32⟩
  | 7 => ⟨S2x800000, .i32⟩
  | 8 => ⟨S2x800000, .i32⟩
  | 9 => ⟨S50000, .i32⟩
  | 10 => ⟨S50000, .i32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .f32⟩
  | 40 => ⟨S50000x1, .f32⟩
  | 41 => ⟨S1x1x128x128, .f32⟩
  | 42 => ⟨S128x128, .f32⟩
  | 43 => ⟨S1x1x128, .f32⟩
  | 44 => ⟨S128, .f32⟩
  | 45 => ⟨S1x128, .f32⟩
  | 46 => ⟨S1x1x128x128, .f32⟩
  | 47 => ⟨S128x128, .f32⟩
  | 48 => ⟨S50000x128, .f32⟩
  | 49 => ⟨S1x800000, .i32⟩
  | 50 => ⟨S800000, .i32⟩
  | 51 => ⟨S1x800000, .i32⟩
  | 52 => ⟨S800000, .i32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S_, .f32⟩
  | 76 => ⟨S50000, .f32⟩
  | 77 => ⟨S50000, .f32⟩
  | 78 => ⟨S50000x1, .f32⟩
  | 79 => ⟨S1x1x128x128, .f32⟩
  | 80 => ⟨S128x128, .f32⟩
  | 81 => ⟨S1x1x128, .f32⟩
  | 82 => ⟨S128, .f32⟩
  | 83 => ⟨S1x128, .f32⟩
  | 84 => ⟨S1x1x128x128, .f32⟩
  | 85 => ⟨S128x128, .f32⟩
  | 86 => ⟨S50000x128, .f32⟩
  | 87 => ⟨S1x800000, .i32⟩
  | 88 => ⟨S800000, .i32⟩
  | 89 => ⟨S1x800000, .i32⟩
  | 90 => ⟨S800000, .i32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S_, .f32⟩
  | 105 => ⟨S800000, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .f32⟩
  | 113 => ⟨S_, .f32⟩
  | 114 => ⟨S50000, .f32⟩
  | 115 => ⟨S50000, .f32⟩
  | 116 => ⟨S50000x1, .f32⟩
  | 117 => ⟨S1x1x128x128, .f32⟩
  | 118 => ⟨S128x128, .f32⟩
  | 119 => ⟨S1x1x128, .f32⟩
  | 120 => ⟨S128, .f32⟩
  | 121 => ⟨S1x128, .f32⟩
  | 122 => ⟨S1x1x128x128, .f32⟩
  | 123 => ⟨S128x128, .f32⟩
  | 124 => ⟨S50000x128, .f32⟩
  | 125 => ⟨S1x800000, .i32⟩
  | 126 => ⟨S800000, .i32⟩
  | 127 => ⟨S1x800000, .i32⟩
  | _ => ⟨S50000x128, .f32⟩

abbrev hbmTy0_1 (i : Nat) : BufTy := match i % 128 with
  | 0 => ⟨S800000, .i32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S50000x1, .f32⟩
  | 27 => ⟨S1x1x128x128, .f32⟩
  | 28 => ⟨S128x128, .f32⟩
  | 29 => ⟨S1x1x128, .f32⟩
  | 30 => ⟨S128, .f32⟩
  | 31 => ⟨S1x128, .f32⟩
  | 32 => ⟨S1x1x128x128, .f32⟩
  | 33 => ⟨S128x128, .f32⟩
  | 34 => ⟨S50000x128, .f32⟩
  | 35 => ⟨S1x800000, .i32⟩
  | 36 => ⟨S800000, .i32⟩
  | 37 => ⟨S1x800000, .i32⟩
  | 38 => ⟨S800000, .i32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S_, .f32⟩
  | 53 => ⟨S800000, .f32⟩
  | 54 => ⟨S_, .f32⟩
  | 55 => ⟨S50000, .f32⟩
  | 56 => ⟨S800000x1, .i32⟩
  | 57 => ⟨S50000, .f32⟩
  | 58 => ⟨S_, .f32⟩
  | 59 => ⟨S50000, .f32⟩
  | 60 => ⟨S50000, .f32⟩
  | 61 => ⟨S_, .f32⟩
  | 62 => ⟨S50000, .f32⟩
  | 63 => ⟨S50000, .f32⟩
  | 64 => ⟨S50000x1, .f32⟩
  | 65 => ⟨S1x1x128x128, .f32⟩
  | 66 => ⟨S128x128, .f32⟩
  | 67 => ⟨S1x1x128, .f32⟩
  | 68 => ⟨S128, .f32⟩
  | 69 => ⟨S1x128, .f32⟩
  | 70 => ⟨S1x1x128x128, .f32⟩
  | 71 => ⟨S128x128, .f32⟩
  | 72 => ⟨S50000x128, .f32⟩
  | 73 => ⟨S1x800000, .i32⟩
  | 74 => ⟨S800000, .i32⟩
  | 75 => ⟨S1x800000, .i32⟩
  | 76 => ⟨S800000, .i32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S800000, .f32⟩
  | 92 => ⟨S_, .f32⟩
  | 93 => ⟨S50000, .f32⟩
  | 94 => ⟨S800000x1, .i32⟩
  | 95 => ⟨S50000, .f32⟩
  | 96 => ⟨S_, .f32⟩
  | 97 => ⟨S50000, .f32⟩
  | 98 => ⟨S50000, .f32⟩
  | 99 => ⟨S_, .f32⟩
  | 100 => ⟨S50000, .f32⟩
  | 101 => ⟨S50000, .f32⟩
  | 102 => ⟨S50000x1, .f32⟩
  | 103 => ⟨S1x1x128x128, .f32⟩
  | 104 => ⟨S128x128, .f32⟩
  | 105 => ⟨S1x1x128, .f32⟩
  | 106 => ⟨S128, .f32⟩
  | 107 => ⟨S1x128, .f32⟩
  | 108 => ⟨S1x1x128x128, .f32⟩
  | 109 => ⟨S128x128, .f32⟩
  | 110 => ⟨S50000x128, .f32⟩
  | 111 => ⟨S_, .f32⟩
  | 112 => ⟨S16x128, .f32⟩
  | 113 => ⟨S50000x1, .i32⟩
  | 114 => ⟨S16x128, .f32⟩
  | 115 => ⟨S_, .f32⟩
  | 116 => ⟨S50000, .f32⟩
  | 117 => ⟨S_, .f32⟩
  | 118 => ⟨S16, .f32⟩
  | 119 => ⟨S50000x1, .i32⟩
  | 120 => ⟨S16, .f32⟩
  | 121 => ⟨S_, .f32⟩
  | 122 => ⟨S16, .f32⟩
  | 123 => ⟨S16, .f32⟩
  | 124 => ⟨S16x1, .f32⟩
  | 125 => ⟨S16x128, .f32⟩
  | 126 => ⟨S16x128, .f32⟩
  | 127 => ⟨S_, .f32⟩
  | _ => ⟨S50000x128, .f32⟩

abbrev hbmTy0_2 (i : Nat) : BufTy := match i % 128 with
  | 0 => ⟨S16x128, .f32⟩
  | 1 => ⟨S50000x1, .i32⟩
  | 2 => ⟨S16x128, .f32⟩
  | 3 => ⟨S_, .f32⟩
  | 4 => ⟨S50000, .f32⟩
  | 5 => ⟨S_, .f32⟩
  | 6 => ⟨S16, .f32⟩
  | 7 => ⟨S50000x1, .i32⟩
  | 8 => ⟨S16, .f32⟩
  | 9 => ⟨S_, .f32⟩
  | 10 => ⟨S16, .f32⟩
  | 11 => ⟨S16, .f32⟩
  | 12 => ⟨S16x1, .f32⟩
  | 13 => ⟨S16x128, .f32⟩
  | 14 => ⟨S16x128, .f32⟩
  | 15 => ⟨S16x256, .f32⟩
  | 16 => ⟨S16x2, .f32⟩
  | 17 => ⟨S1x2, .f32⟩
  | 18 => ⟨S16x2, .f32⟩
  | 19 => ⟨S16x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S2000x128, .f32⟩
  | .local _ .vmem, ⟨38, _⟩ => ⟨S2000x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x1, .f32⟩
  | .local _ .vmem, ⟨47, _⟩ => ⟨S2000x1, .f32⟩
  | .local _ .vmem, ⟨48, _⟩ => ⟨S2000x128, .f32⟩
  | .local _ .vmem, ⟨49, _⟩ => ⟨S2000x128, .f32⟩
  | .local _ .vmem, ⟨50, _⟩ => ⟨S128x128, .f32⟩
  | .local _ .vmem, ⟨51, _⟩ => ⟨S1x128, .f32⟩
  | .local _ .vmem, ⟨52, _⟩ => ⟨S128x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x1, .f32⟩
  | .local _ .vmem, ⟨58, _⟩ => ⟨S2000x1, .f32⟩
  | .local _ .vmem, ⟨59, _⟩ => ⟨S2000x128, .f32⟩
  | .local _ .vmem, ⟨60, _⟩ => ⟨S2000x128, .f32⟩
  | .local _ .vmem, ⟨61, _⟩ => ⟨S128x128, .f32⟩
  | .local _ .vmem, ⟨62, _⟩ => ⟨S1x128, .f32⟩
  | .local _ .vmem, ⟨63, _⟩ => ⟨S128x128, .f32⟩
  | .local _ .vmem, ⟨64, _⟩ => ⟨S2000x128, .f32⟩
  | .local _ .vmem, ⟨65, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_19 : Ref sig .tc := ⟨.hbm, 129, rfl⟩
abbrev main_v97 : Ref sig .tc := ⟨.hbm, 130, rfl⟩
abbrev main_v98 : Ref sig .tc := ⟨.hbm, 131, rfl⟩
abbrev main_c_20 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_21 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_22 : Ref sig .tc := ⟨.hbm, 142, rfl⟩
abbrev main_v107 : Ref sig .tc := ⟨.hbm, 143, rfl⟩
abbrev main_cst_23 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_24 : Ref sig .tc := ⟨.hbm, 148, rfl⟩
abbrev main_v111 : Ref sig .tc := ⟨.hbm, 149, rfl⟩
abbrev main_v112 : Ref sig .tc := ⟨.hbm, 150, rfl⟩
abbrev main_cst_25 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_c_26 : Ref sig .tc := ⟨.hbm, 167, rfl⟩
abbrev main_v128 : Ref sig .tc := ⟨.hbm, 168, rfl⟩
abbrev main_v129 : Ref sig .tc := ⟨.hbm, 169, rfl⟩
abbrev main_c_27 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_28 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_29 : Ref sig .tc := ⟨.hbm, 180, rfl⟩
abbrev main_v138 : Ref sig .tc := ⟨.hbm, 181, rfl⟩
abbrev main_cst_30 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_31 : Ref sig .tc := ⟨.hbm, 186, rfl⟩
abbrev main_v142 : Ref sig .tc := ⟨.hbm, 187, rfl⟩
abbrev main_v143 : Ref sig .tc := ⟨.hbm, 188, rfl⟩
abbrev main_cst_32 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_c_33 : Ref sig .tc := ⟨.hbm, 205, rfl⟩
abbrev main_v159 : Ref sig .tc := ⟨.hbm, 206, rfl⟩
abbrev main_v160 : Ref sig .tc := ⟨.hbm, 207, rfl⟩
abbrev main_c_34 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_35 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_36 : Ref sig .tc := ⟨.hbm, 218, rfl⟩
abbrev main_v169 : Ref sig .tc := ⟨.hbm, 219, rfl⟩
abbrev main_cst_37 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_38 : Ref sig .tc := ⟨.hbm, 224, rfl⟩
abbrev main_v173 : Ref sig .tc := ⟨.hbm, 225, rfl⟩
abbrev main_v174 : Ref sig .tc := ⟨.hbm, 226, rfl⟩
abbrev main_cst_39 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_40 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_cst_41 : Ref sig .tc := ⟨.hbm, 243, rfl⟩
abbrev main_v189 : Ref sig .tc := ⟨.hbm, 244, rfl⟩
abbrev main_cst_42 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_cst_43 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_cst_44 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_cst_45 : Ref sig .tc := ⟨.hbm, 259, rfl⟩
abbrev main_v201 : Ref sig .tc := ⟨.hbm, 260, rfl⟩
abbrev main_cst_46 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_47 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg6_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem6_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x2x128x128_S1x1x128x128_0_1_0_0 : S3x2x128x128.Slices ![0, 1, 0, 0] S1x1x128x128
  slices_S3x2x128_S1x1x128_0_1_0 : S3x2x128.Slices ![0, 1, 0] S1x1x128
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  bcast_S_S16x128 : S_.BroadcastsInDim S16x128 (![] : Fin 0 → Fin S16x128.rank)
  bcast_S50000_S50000x1_0 : S50000.BroadcastsInDim S50000x1 (![0] : Fin 1 → Fin S50000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  concatenates_S16x128_S16x128_S16x256_d1 : Shape.Concatenates [S16x128, S16x128] S16x256 1
  bcast_S2_S1x2_1 : S2.BroadcastsInDim S1x2 (![1] : Fin 1 → Fin S1x2.rank)
  bcast_S1x2_S16x2_0_1 : S1x2.BroadcastsInDim S16x2 (![0, 1] : Fin 2 → Fin S16x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  scatter_S16x128_S50000x1_S50000x128_1_0_0_1_wf : ScatterDims.WF S16x128 S50000x1 S50000x128 [1] [0] [0] 1
  scatter_S16_S50000x1_S50000_n_0_0_1_wf : ScatterDims.WF S16 S50000x1 S50000 [] [0] [0] 1
  dot_S16x256_S256x2_S16x2_1_0_0_1_n_n_wf : DotDims.WF S16x256 S256x2 S16x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def dot_S16x256_S256x2_S16x2_1_0_0_1_n_n : DotDims S16x256 S256x2 S16x2 where
  lhsContracting := [1]
  rhsContracting := [0]
  lhsNonContracting := [0]
  rhsNonContracting := [1]
  lhsBatch := []
  rhsBatch := []
  wf := dot_S16x256_S256x2_S16x2_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v75) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v86) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v106) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v115) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v117) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v120) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v122) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v123) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v137) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v146) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v148) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v151) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v153) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v154) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v168) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v177) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v123) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v179) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v182) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v184) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v185) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S3x2x128x128 : Shape := ⟨4, ![3, 2, 128, 128]⟩
abbrev S3x2x128 : Shape := ⟨3, ![3, 2, 128]⟩
abbrev S256x2 : Shape := ⟨2, ![256, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S16x128 : Shape := ⟨2, ![16, 128]⟩
abbrev S16 : Shape := ⟨1, ![16]⟩
abbrev S16x1 : Shape := ⟨2, ![16, 1]⟩
abbrev S16x256 : Shape := ⟨2, ![16, 256]⟩
abbrev S16x2 : Shape := ⟨2, ![16, 2]⟩
abbrev S1x2 : Shape := ⟨2, ![1, 2]⟩

abbrev nBuf : Space → Nat
  | .hbm => 312
  | .vmem => 0
  | .smem => 0
  | _ => 0

abbrev hbmTy0_0 (i : Nat) : BufTy := match i % 128 with
  | 0 => ⟨S50000x128, .f32⟩
  | 1 => ⟨S50000x128, .f32⟩
  | 2 => ⟨S3x2x128x128, .f32⟩
  | 3 => ⟨S3x2x128, .f32⟩
  | 4 => ⟨S3x2x128x128, .f32⟩
  | 5 => ⟨S256x2, .f32⟩
  | 6 => ⟨S2, .f32⟩
  | 7 => ⟨S2x800000, .i32⟩
  | 8 => ⟨S2x800000, .i32⟩
  | 9 => ⟨S50000, .i32⟩
  | 10 => ⟨S50000, .i32⟩
  | 11 => ⟨S1x800000, .i32⟩
  | 12 => ⟨S800000, .i32⟩
  | 13 => ⟨S1x800000, .i32⟩
  | 14 => ⟨S800000, .i32⟩
  | 15 => ⟨S1x1x128x128, .f32⟩
  | 16 => ⟨S128x128, .f32⟩
  | 17 => ⟨S1x1x128, .f32⟩
  | 18 => ⟨S128, .f32⟩
  | 19 => ⟨S1x1x128x128, .f32⟩
  | 20 => ⟨S128x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S1x800000, .i32⟩
  | 56 => ⟨S800000, .i32⟩
  | 57 => ⟨S1x800000, .i32⟩
  | 58 => ⟨S800000, .i32⟩
  | 59 => ⟨S1x1x128x128, .f32⟩
  | 60 => ⟨S128x128, .f32⟩
  | 61 => ⟨S1x1x128, .f32⟩
  | 62 => ⟨S128, .f32⟩
  | 63 => ⟨S1x1x128x128, .f32⟩
  | 64 => ⟨S128x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S_, .f32⟩
  | 79 => ⟨S800000, .f32⟩
  | 80 => ⟨S_, .f32⟩
  | 81 => ⟨S50000, .f32⟩
  | 82 => ⟨S800000x1, .i32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S1x800000, .i32⟩
  | 100 => ⟨S800000, .i32⟩
  | 101 => ⟨S1x800000, .i32⟩
  | 102 => ⟨S800000, .i32⟩
  | 103 => ⟨S1x1x128x128, .f32⟩
  | 104 => ⟨S128x128, .f32⟩
  | 105 => ⟨S1x1x128, .f32⟩
  | 106 => ⟨S128, .f32⟩
  | 107 => ⟨S1x1x128x128, .f32⟩
  | 108 => ⟨S128x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S_, .f32⟩
  | 123 => ⟨S800000, .f32⟩
  | 124 => ⟨S_, .f32⟩
  | 125 => ⟨S50000, .f32⟩
  | 126 => ⟨S800000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S50000x1, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S1x800000, .i32⟩
  | 16 => ⟨S800000, .i32⟩
  | 17 => ⟨S1x800000, .i32⟩
  | 18 => ⟨S800000, .i32⟩
  | 19 => ⟨S1x1x128x128, .f32⟩
  | 20 => ⟨S128x128, .f32⟩
  | 21 => ⟨S1x1x128, .f32⟩
  | 22 => ⟨S128, .f32⟩
  | 23 => ⟨S1x1x128x128, .f32⟩
  | 24 => ⟨S128x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S_, .f32⟩
  | 39 => ⟨S800000, .f32⟩
  | 40 => ⟨S_, .f32⟩
  | 41 => ⟨S50000, .f32⟩
  | 42 => ⟨S800000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S1x800000, .i32⟩
  | 60 => ⟨S800000, .i32⟩
  | 61 => ⟨S1x800000, .i32⟩
  | 62 => ⟨S800000, .i32⟩
  | 63 => ⟨S1x1x128x128, .f32⟩
  | 64 => ⟨S128x128, .f32⟩
  | 65 => ⟨S1x1x128, .f32⟩
  | 66 => ⟨S128, .f32⟩
  | 67 => ⟨S1x1x128x128, .f32⟩
  | 68 => ⟨S128x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S_, .f32⟩
  | 83 => ⟨S800000, .f32⟩
  | 84 => ⟨S_, .f32⟩
  | 85 => ⟨S50000, .f32⟩
  | 86 => ⟨S800000x1, .i32⟩
  | 87 => ⟨S50000, .f32⟩
  | 88 => ⟨S_, .f32⟩
  | 89 => ⟨S50000, .f32⟩
  | 90 => ⟨S50000, .f32⟩
  | 91 => ⟨S50000x1, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S1x800000, .i32⟩
  | 104 => ⟨S800000, .i32⟩
  | 105 => ⟨S1x800000, .i32⟩
  | 106 => ⟨S800000, .i32⟩
  | 107 => ⟨S1x1x128x128, .f32⟩
  | 108 => ⟨S128x128, .f32⟩
  | 109 => ⟨S1x1x128, .f32⟩
  | 110 => ⟨S128, .f32⟩
  | 111 => ⟨S1x1x128x128, .f32⟩
  | 112 => ⟨S128x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S_, .f32⟩
  | 127 => ⟨S800000, .f32⟩
  | _ => ⟨S50000x128, .f32⟩

abbrev hbmTy0_2 (i : Nat) : BufTy := match i % 128 with
  | 0 => ⟨S_, .f32⟩
  | 1 => ⟨S50000, .f32⟩
  | 2 => ⟨S800000x1, .i32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .f32⟩
  | 20 => ⟨S16x128, .f32⟩
  | 21 => ⟨S50000x1, .i32⟩
  | 22 => ⟨S16x128, .f32⟩
  | 23 => ⟨S_, .f32⟩
  | 24 => ⟨S50000, .f32⟩
  | 25 => ⟨S_, .f32⟩
  | 26 => ⟨S16, .f32⟩
  | 27 => ⟨S50000x1, .i32⟩
  | 28 => ⟨S16, .f32⟩
  | 29 => ⟨S_, .f32⟩
  | 30 => ⟨S16, .f32⟩
  | 31 => ⟨S16, .f32⟩
  | 32 => ⟨S16x1, .f32⟩
  | 33 => ⟨S16x128, .f32⟩
  | 34 => ⟨S16x128, .f32⟩
  | 35 => ⟨S_, .f32⟩
  | 36 => ⟨S16x128, .f32⟩
  | 37 => ⟨S50000x1, .i32⟩
  | 38 => ⟨S16x128, .f32⟩
  | 39 => ⟨S_, .f32⟩
  | 40 => ⟨S50000, .f32⟩
  | 41 => ⟨S_, .f32⟩
  | 42 => ⟨S16, .f32⟩
  | 43 => ⟨S50000x1, .i32⟩
  | 44 => ⟨S16, .f32⟩
  | 45 => ⟨S_, .f32⟩
  | 46 => ⟨S16, .f32⟩
  | 47 => ⟨S16, .f32⟩
  | 48 => ⟨S16x1, .f32⟩
  | 49 => ⟨S16x128, .f32⟩
  | 50 => ⟨S16x128, .f32⟩
  | 51 => ⟨S16x256, .f32⟩
  | 52 => ⟨S16x2, .f32⟩
  | 53 => ⟨S1x2, .f32⟩
  | 54 => ⟨S16x2, .f32⟩
  | 55 => ⟨S16x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_4 : Ref sig .tc := ⟨.hbm, 65, rfl⟩
abbrev main_v46 : Ref sig .tc := ⟨.hbm, 66, rfl⟩
abbrev main_v47 : Ref sig .tc := ⟨.hbm, 67, rfl⟩
abbrev main_c_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_10 : Ref sig .tc := ⟨.hbm, 109, rfl⟩
abbrev main_v82 : Ref sig .tc := ⟨.hbm, 110, rfl⟩
abbrev main_v83 : Ref sig .tc := ⟨.hbm, 111, rfl⟩
abbrev main_c_11 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_12 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_13 : Ref sig .tc := ⟨.hbm, 122, rfl⟩
abbrev main_v92 : Ref sig .tc := ⟨.hbm, 123, rfl⟩
abbrev main_cst_14 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_15 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_call2_cst : Ref sig .tc := ⟨.hbm, 140, rfl⟩
abbrev main_call2_v0 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_16 : Ref sig .tc := ⟨.hbm, 153, rfl⟩
abbrev main_v118 : Ref sig .tc := ⟨.hbm, 154, rfl⟩
abbrev main_v119 : Ref sig .tc := ⟨.hbm, 155, rfl⟩
abbrev main_c_17 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_18 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_19 : Ref sig .tc := ⟨.hbm, 166, rfl⟩
abbrev main_v128 : Ref sig .tc := ⟨.hbm, 167, rfl⟩
abbrev main_cst_20 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_21 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_call3_cst : Ref sig .tc := ⟨.hbm, 184, rfl⟩
abbrev main_call3_v0 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_c_22 : Ref sig .tc := ⟨.hbm, 197, rfl⟩
abbrev main_v154 : Ref sig .tc := ⟨.hbm, 198, rfl⟩
abbrev main_v155 : Ref sig .tc := ⟨.hbm, 199, rfl⟩
abbrev main_c_23 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_cst_24 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_25 : Ref sig .tc := ⟨.hbm, 210, rfl⟩
abbrev main_v164 : Ref sig .tc := ⟨.hbm, 211, rfl⟩
abbrev main_cst_26 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_27 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_call4_cst : Ref sig .tc := ⟨.hbm, 228, rfl⟩
abbrev main_call4_v0 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_c_28 : Ref sig .tc := ⟨.hbm, 241, rfl⟩
abbrev main_v190 : Ref sig .tc := ⟨.hbm, 242, rfl⟩
abbrev main_v191 : Ref sig .tc := ⟨.hbm, 243, rfl⟩
abbrev main_c_29 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_cst_30 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_cst_31 : Ref sig .tc := ⟨.hbm, 254, rfl⟩
abbrev main_v200 : Ref sig .tc := ⟨.hbm, 255, rfl⟩
abbrev main_cst_32 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_cst_33 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_call5_cst : Ref sig .tc := ⟨.hbm, 272, rfl⟩
abbrev main_call5_v0 : Ref sig .tc := ⟨.hbm, 273, rfl⟩
abbrev main_v215 : Ref sig .tc := ⟨.hbm, 274, rfl⟩
abbrev main_cst_34 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_cst_35 : Ref sig .tc := ⟨.hbm, 279, rfl⟩
abbrev main_v219 : Ref sig .tc := ⟨.hbm, 280, rfl⟩
abbrev main_cst_36 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_cst_37 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_cst_38 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_cst_39 : Ref sig .tc := ⟨.hbm, 295, rfl⟩
abbrev main_v231 : Ref sig .tc := ⟨.hbm, 296, rfl⟩
abbrev main_cst_40 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_cst_41 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x2x128x128_S1x1x128x128_0_1_0_0 : S3x2x128x128.Slices ![0, 1, 0, 0] S1x1x128x128
  slices_S3x2x128_S1x1x128_0_1_0 : S3x2x128.Slices ![0, 1, 0] S1x1x128
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  bcast_S_S16x128 : S_.BroadcastsInDim S16x128 (![] : Fin 0 → Fin S16x128.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  concatenates_S16x128_S16x128_S16x256_d1 : Shape.Concatenates [S16x128, S16x128] S16x256 1
  bcast_S2_S1x2_1 : S2.BroadcastsInDim S1x2 (![1] : Fin 1 → Fin S1x2.rank)
  bcast_S1x2_S16x2_0_1 : S1x2.BroadcastsInDim S16x2 (![0, 1] : Fin 2 → Fin S16x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S16x128_S50000x1_S50000x128_1_0_0_1_wf : ScatterDims.WF S16x128 S50000x1 S50000x128 [1] [0] [0] 1
  scatter_S16_S50000x1_S50000_n_0_0_1_wf : ScatterDims.WF S16 S50000x1 S50000 [] [0] [0] 1
  dot_S16x256_S256x2_S16x2_1_0_0_1_n_n_wf : DotDims.WF S16x256 S256x2 S16x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def dot_S16x256_S256x2_S16x2_1_0_0_1_n_n : DotDims S16x256 S256x2 S16x2 where
  lhsContracting := [1]
  rhsContracting := [0]
  lhsNonContracting := [0]
  rhsNonContracting := [1]
  lhsBatch := []
  rhsBatch := []
  wf := dot_S16x256_S256x2_S16x2_1_0_0_1_n_n_wf

class Facts : Prop extends Facts₀ where

variable [Facts]
-- ==== Proof.KernelRun.lean ====
/-
  The idealized kernel's run with its result named.

  @main is thirteen segments: seven stretches of host operations and six calls between them. The buffer contents at
  the segment boundaries are a fold from the launch memory: a host stretch applies its operations, a call replaces
  its arrays by what its write-backs leave. Every weakly fair execution terminates, faults nowhere, and ends with
  every buffer that outlives @main at the last boundary's contents; here that is read at the result buffer as well
  as at the eleven arguments, which end as launched.
-/
import proofs.«120746_j29394756174084_1_alg».proof.Proof.Gen.KernelIdeal.Frame

set_option maxRecDepth 16384

noncomputable section

namespace Cert.KernelIdeal.SageValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents and the arguments end as launched. -/
theorem run_result : θ_run defs (onTc (τ := τ) (main (F := F))) ⟨m, fun _ => 0, ρ⟩ (fun r => ∀ c : Dev nD,
      r.2.mem ((c.tc : Thread nD τ).loc main_v214) = W13 m ρ c (Proc.devRef .tc main_v214)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v214 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.SageValue

end
-- ==== Proof.SageLayer.lean ====
/-
  One SAGE layer as a function of whole arrays, over the extended reals.

  For node features `x` (n × d, n = 50000, d = 128), neighbour sums `agg` (n × d), a per-node scale `inv` (n × 1),
  weights `wl`, `wr` (d × d) and a bias row `b` (1 × d), the layer's entry at node `i`, feature `j` is

      max ( Σ_k (agg[i,k] · inv[i,0]) · wl[k,j]  +  Σ_k x[i,k] · wr[k,j]  +  b[0,j] , 0 ).

  The scale is the reciprocal of a neighbour count clamped below at one; on the extended reals a product with
  `1 / c` is the quotient by `c` whenever `c` is not zero (the inverse of an infinity is zero on both sides), and
  `1 ≤ c` rules zero out. No finiteness of any entry is needed: the only other law used between the two programs
  is commutativity and associativity of addition.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Node features, n × d. -/
abbrev Snd : Shape := ⟨2, ![50000, 128]⟩
/-- One scalar per node, kept as a column. -/
abbrev Sn1 : Shape := ⟨2, ![50000, 1]⟩
/-- A weight matrix, d × d. -/
abbrev Sdd : Shape := ⟨2, ![128, 128]⟩
/-- A bias, kept as a row. -/
abbrev S1d : Shape := ⟨2, ![1, 128]⟩

/-- The single-precision pattern of `1.0` denotes the real number one. -/
theorem one_lit : Ideal.ofBits .f32 0x3F800000#32 = 1 := by
  simp [Ideal.ofBits, Ideal.ieee, -EReal.coe_mul]; norm_num

/-- A product with the reciprocal of `c` is the quotient by `c`, for every extended real `a`, once `1 ≤ c`:
    both sides are `a · c⁻¹` because `c` is not zero. -/
theorem mul_recip (a c : EReal) (hc : 1 ≤ c) : a * Ideal.div 1 c = Ideal.div a c := by
  have h0 : c ≠ 0 := (lt_of_lt_of_le zero_lt_one hc).ne'
  rw [Ideal.div, Ideal.div, if_neg h0, if_neg h0, one_mul]

/-- The layer: entry (i, j) of the result from row `i` of `agg`, `inv`, `x` and column `j` of `wl`, `wr`, `b`. -/
def layer (agg : FVec Ideal Snd .f32) (inv : FVec Ideal Sn1 .f32) (x : FVec Ideal Snd .f32)
    (wl : FVec Ideal Sdd .f32) (b : FVec Ideal S1d .f32) (wr : FVec Ideal Sdd .f32) : FVec Ideal Snd .f32 :=
  fun i => max ((∑ k : Fin 128, (agg (ix2 (i 0) k) * inv (ix2 (i 0) 0)) * wl (ix2 k (i 1)))
                + (∑ k : Fin 128, x (ix2 (i 0) k) * wr (ix2 k (i 1)))
                + b (ix2 0 (i 1)))
              (Ideal.ofBits .f32 0x00000000#32)

end Cert.Sage

end
-- ==== Proof.Payload.lean ====
/-
  The kernel bodies' arithmetic at one entry, over the extended reals.

  Each of the six calls runs the same computation: it multiplies each row of the neighbour-sum block by that row's
  scale, multiplies the result by the left weights, multiplies the feature block by the right weights, adds the two
  products and the bias row, and clamps below at zero. Changes of float format are the identity here, a matrix
  product into a zero accumulator is the plain sum over the contracted axis, a reshape to the same shape is the
  identity, and a broadcast reads its operand at the coordinate that survives. Entry (p, q) of the block is therefore

      max ( Σ_k (a[p,k] · s[p,0]) · wl[k,q]  +  Σ_k x[p,k] · wr[k,q]  +  b[0,q] , 0 ),

  and it is the layer's entry at array index `i` once each block entry the body reads is the whole array's entry on
  row `i 0`, respectively column `i 1`.
-/
import proofs.«120746_j29394756174084_1_alg».proof.Proof.Gen.KernelIdeal.Skeleton
import proofs.«120746_j29394756174084_1_alg».proof.Proof.SageLayer
import Idealize.ShloMosaic.Lib.Pipeline.Value
import Idealize.ShloMosaic.Lib.ValueIdx
import Idealize.ShloMosaic.PureOps.Ideal.Laws

noncomputable section

namespace Cert.KernelIdeal.SageValue

open Idealize.ShloMosaic Idealize.ShloMosaic.ValueIdx Cert.KernelIdeal Cert.KernelIdeal.Gen

/-- The block product's dimension record: rows of the left operand against columns of the right. -/
local notation "dK" => dot_S2000x128_S128x128_S2000x128_1_0_0_1_n_n

/-- A column of per-row scalars spread along the feature axis reads the row's scalar. -/
theorem bcast_col (v : FVec Ideal S2000x1 .f32) (p : Fin 2000) (q : Fin 128) :
    broadcastTo S2000x128 v broadcasts_S2000x1_S2000x128 (ix2 p q) = v (ix2 p 0) :=
  broadcastTo_apply v broadcasts_S2000x1_S2000x128 (ix2 p q) (ix2 p 0) (fun a => match a with
    | ⟨0, _⟩ => by show p.val = if (2000 : Nat) = 1 then 0 else p.val; rw [if_neg (by decide)]
    | ⟨1, _⟩ => by show 0 = if (1 : Nat) = 1 then 0 else q.val; rw [if_pos rfl])

/-- A bias row spread along the node axis reads the feature's bias. -/
theorem bcast_row (v : FVec Ideal S1x128 .f32) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

theorem lhs_row (i : S2000x128.Idx) (κ : (dK).contr.Idx) : ((dK).lhsIdx i κ 0).val = (i 0).val := by
  unfold DotDims.lhsIdx
  rw [dif_neg (show ¬(0 : Fin S2000x128.rank) ∈ (dK).lhsBatch by decide), dif_pos (show (0 : Fin S2000x128.rank) ∈ (dK).lhsNonContracting by decide)]
  rfl

theorem rhs_col (i : S2000x128.Idx) (κ : (dK).contr.Idx) : ((dK).rhsIdx i κ 1).val = (i 1).val := by
  unfold DotDims.rhsIdx
  rw [dif_neg (show ¬(1 : Fin S128x128.rank) ∈ (dK).rhsBatch by decide), dif_pos (show (1 : Fin S128x128.rank) ∈ (dK).rhsNonContracting by decide)]
  rfl

/-- The block product into a zero accumulator, at entry (p, q): the sum over the contracted axis. -/
theorem mm_apply {φ₁ φ₂ : FTy} (l : FVec Ideal S2000x128 φ₁) (r : FVec Ideal S128x128 φ₂) (p : Fin 2000) (q : Fin 128) :
    FloatOps.matmul dK none l r (constant S2000x128 .f32 0x00000000#32) (ix2 p q) = ∑ k : Fin 128, l (ix2 p k) * r (ix2 k q) := by
  rw [Ideal.matmul_constant_zero_apply, ← Equiv.sum_comp (contrEquiv1 dK 128 rfl rfl).symm]
  refine Finset.sum_congr rfl fun k _ => ?_
  have hk := contrEquiv1_symm_val dK 128 rfl rfl k
  have el : (dK).lhsIdx (ix2 p q) ((contrEquiv1 dK 128 rfl rfl).symm k) = ix2 p k := funext fun a => Fin.ext (by
    match a with
    | ⟨0, _⟩ => exact lhs_row _ _
    | ⟨1, _⟩ => exact ((dK).lhsIdx_val_of_single rfl _ _).trans hk)
  have er : (dK).rhsIdx (ix2 p q) ((contrEquiv1 dK 128 rfl rfl).symm k) = ix2 k q := funext fun a => Fin.ext (by
    match a with
    | ⟨0, _⟩ => exact ((dK).rhsIdx_val_of_single rfl _ _).trans hk
    | ⟨1, _⟩ => exact rhs_col _ _)
  rw [el, er]

/-- The first call's stored value at entry (p, q) of the block. -/
theorem pay0_apply (a : Vec Ideal S2000x128 .f32) (s : Vec Ideal S2000x1 .f32) (x : Vec Ideal S2000x128 .f32)
    (wl : Vec Ideal S128x128 .f32) (wr : Vec Ideal S128x128 .f32) (b : Vec Ideal S1x128 .f32) (p : Fin 2000) (q : Fin 128) :
    k0_pay1 (F := Ideal) a s x wl wr b (ix2 p q)
      = max ((∑ k : Fin 128, (a (ix2 p k) * s (ix2 p 0)) * wl (ix2 k q)) + (∑ k : Fin 128, x (ix2 p k) * wr (ix2 k q)) + b (ix2 0 q))
          (Ideal.ofBits .f32 0x00000000#32) := by
  unfold k0_pay1
  simp only [shapeCast_self]
  show max ((FloatOps.matmul (F := Ideal) dK none _ _ (constant (F := Ideal) S2000x128 .f32 0x00000000#32) (ix2 p q)
        + FloatOps.matmul (F := Ideal) dK none _ _ (constant (F := Ideal) S2000x128 .f32 0x00000000#32) (ix2 p q))
        + broadcastTo S2000x128 b broadcasts_S1x128_S2000x128 (ix2 p q)) (Ideal.ofBits .f32 0x00000000#32) = _
  rw [mm_apply, mm_apply, bcast_row]
  refine congrArg₂ max (congrArg₂ (· + ·) (congrArg₂ (· + ·) (Finset.sum_congr rfl fun k _ => ?_) (Finset.sum_congr rfl fun k _ => rfl)) rfl) rfl
  show (a (ix2 p k) * broadcastTo S2000x128 s broadcasts_S2000x1_S2000x128 (ix2 p k)) * wl (ix2 k q) = _
  rw [bcast_col]

theorem block_entry0 (a : Vec Ideal S2000x128 .f32) (s : Vec Ideal S2000x1 .f32) (x : Vec Ideal S2000x128 .f32)
    (wl : Vec Ideal S128x128 .f32) (b : Vec Ideal S1x128 .f32) (wr : Vec Ideal S128x128 .f32)
    (A : FVec Ideal Cert.Sage.Snd .f32) (Sc : FVec Ideal Cert.Sage.Sn1 .f32) (X : FVec Ideal Cert.Sage.Snd .f32)
    (WL : FVec Ideal Cert.Sage.Sdd .f32) (B : FVec Ideal Cert.Sage.S1d .f32) (WR : FVec Ideal Cert.Sage.Sdd .f32)
    (p : Fin 2000) (q : Fin 128) (i : Cert.Sage.Snd.Idx)
    (ha : ∀ k : Fin 128, a (ix2 p k) = A (ix2 (i 0) k)) (hs : s (ix2 p 0) = Sc (ix2 (i 0) 0))
    (hx : ∀ k : Fin 128, x (ix2 p k) = X (ix2 (i 0) k)) (hwl : ∀ k : Fin 128, wl (ix2 k q) = WL (ix2 k (i 1)))
    (hb : b (ix2 0 q) = B (ix2 0 (i 1))) (hwr : ∀ k : Fin 128, wr (ix2 k q) = WR (ix2 k (i 1))) :
    k0_pay1 (F := Ideal) a s x wl wr b (ix2 p q) = Cert.Sage.layer A Sc X WL B WR i := by
  rw [pay0_apply]
  unfold Cert.Sage.layer
  simp only [ha, hs, hx, hwl, hb, hwr]

/-- The second call's stored value at entry (p, q) of the block. -/
theorem pay1_apply (a : Vec Ideal S2000x128 .f32) (s : Vec Ideal S2000x1 .f32) (x : Vec Ideal S2000x128 .f32)
    (wl : Vec Ideal S128x128 .f32) (wr : Vec Ideal S128x128 .f32) (b : Vec Ideal S1x128 .f32) (p : Fin 2000) (q : Fin 128) :
    k1_pay1 (F := Ideal) a s x wl wr b (ix2 p q)
      = max ((∑ k : Fin 128, (a (ix2 p k) * s (ix2 p 0)) * wl (ix2 k q)) + (∑ k : Fin 128, x (ix2 p k) * wr (ix2 k q)) + b (ix2 0 q))
          (Ideal.ofBits .f32 0x00000000#32) := by
  unfold k1_pay1
  simp only [shapeCast_self]
  show max ((FloatOps.matmul (F := Ideal) dK none _ _ (constant (F := Ideal) S2000x128 .f32 0x00000000#32) (ix2 p q)
        + FloatOps.matmul (F := Ideal) dK none _ _ (constant (F := Ideal) S2000x128 .f32 0x00000000#32) (ix2 p q))
        + broadcastTo S2000x128 b broadcasts_S1x128_S2000x128 (ix2 p q)) (Ideal.ofBits .f32 0x00000000#32) = _
  rw [mm_apply, mm_apply, bcast_row]
  refine congrArg₂ max (congrArg₂ (· + ·) (congrArg₂ (· + ·) (Finset.sum_congr rfl fun k _ => ?_) (Finset.sum_congr rfl fun k _ => rfl)) rfl) rfl
  show (a (ix2 p k) * broadcastTo S2000x128 s broadcasts_S2000x1_S2000x128 (ix2 p k)) * wl (ix2 k q) = _
  rw [bcast_col]

theorem block_entry1 (a : Vec Ideal S2000x128 .f32) (s : Vec Ideal S2000x1 .f32) (x : Vec Ideal S2000x128 .f32)
    (wl : Vec Ideal S128x128 .f32) (b : Vec Ideal S1x128 .f32) (wr : Vec Ideal S128x128 .f32)
    (A : FVec Ideal Cert.Sage.Snd .f32) (Sc : FVec Ideal Cert.Sage.Sn1 .f32) (X : FVec Ideal Cert.Sage.Snd .f32)
    (WL : FVec Ideal Cert.Sage.Sdd .f32) (B : FVec Ideal Cert.Sage.S1d .f32) (WR : FVec Ideal Cert.Sage.Sdd .f32)
    (p : Fin 2000) (q : Fin 128) (i : Cert.Sage.Snd.Idx)
    (ha : ∀ k : Fin 128, a (ix2 p k) = A (ix2 (i 0) k)) (hs : s (ix2 p 0) = Sc (ix2 (i 0) 0))
    (hx : ∀ k : Fin 128, x (ix2 p k) = X (ix2 (i 0) k)) (hwl : ∀ k : Fin 128, wl (ix2 k q) = WL (ix2 k (i 1)))
    (hb : b (ix2 0 q) = B (ix2 0 (i 1))) (hwr : ∀ k : Fin 128, wr (ix2 k q) = WR (ix2 k (i 1))) :
    k1_pay1 (F := Ideal) a s x wl wr b (ix2 p q) = Cert.Sage.layer A Sc X WL B WR i := by
  rw [pay1_apply]
  unfold Cert.Sage.layer
  simp only [ha, hs, hx, hwl, hb, hwr]

/-- The third call's stored value at entry (p, q) of the block. -/
theorem pay2_apply (a : Vec Ideal S2000x128 .f32) (s : Vec Ideal S2000x1 .f32) (x : Vec Ideal S2000x128 .f32)
    (wl : Vec Ideal S128x128 .f32) (wr : Vec Ideal S128x128 .f32) (b : Vec Ideal S1x128 .f32) (p : Fin 2000) (q : Fin 128) :
    k2_pay1 (F := Ideal) a s x wl wr b (ix2 p q)
      = max ((∑ k : Fin 128, (a (ix2 p k) * s (ix2 p 0)) * wl (ix2 k q)) + (∑ k : Fin 128, x (ix2 p k) * wr (ix2 k q)) + b (ix2 0 q))
          (Ideal.ofBits .f32 0x00000000#32) := by
  unfold k2_pay1
  simp only [shapeCast_self]
  show max ((FloatOps.matmul (F := Ideal) dK none _ _ (constant (F := Ideal) S2000x128 .f32 0x00000000#32) (ix2 p q)
        + FloatOps.matmul (F := Ideal) dK none _ _ (constant (F := Ideal) S2000x128 .f32 0x00000000#32) (ix2 p q))
        + broadcastTo S2000x128 b broadcasts_S1x128_S2000x128 (ix2 p q)) (Ideal.ofBits .f32 0x00000000#32) = _
  rw [mm_apply, mm_apply, bcast_row]
  refine congrArg₂ max (congrArg₂ (· + ·) (congrArg₂ (· + ·) (Finset.sum_congr rfl fun k _ => ?_) (Finset.sum_congr rfl fun k _ => rfl)) rfl) rfl
  show (a (ix2 p k) * broadcastTo S2000x128 s broadcasts_S2000x1_S2000x128 (ix2 p k)) * wl (ix2 k q) = _
  rw [bcast_col]

theorem block_entry2 (a : Vec Ideal S2000x128 .f32) (s : Vec Ideal S2000x1 .f32) (x : Vec Ideal S2000x128 .f32)
    (wl : Vec Ideal S128x128 .f32) (b : Vec Ideal S1x128 .f32) (wr : Vec Ideal S128x128 .f32)
    (A : FVec Ideal Cert.Sage.Snd .f32) (Sc : FVec Ideal Cert.Sage.Sn1 .f32) (X : FVec Ideal Cert.Sage.Snd .f32)
    (WL : FVec Ideal Cert.Sage.Sdd .f32) (B : FVec Ideal Cert.Sage.S1d .f32) (WR : FVec Ideal Cert.Sage.Sdd .f32)
    (p : Fin 2000) (q : Fin 128) (i : Cert.Sage.Snd.Idx)
    (ha : ∀ k : Fin 128, a (ix2 p k) = A (ix2 (i 0) k)) (hs : s (ix2 p 0) = Sc (ix2 (i 0) 0))
    (hx : ∀ k : Fin 128, x (ix2 p k) = X (ix2 (i 0) k)) (hwl : ∀ k : Fin 128, wl (ix2 k q) = WL (ix2 k (i 1)))
    (hb : b (ix2 0 q) = B (ix2 0 (i 1))) (hwr : ∀ k : Fin 128, wr (ix2 k q) = WR (ix2 k (i 1))) :
    k2_pay1 (F := Ideal) a s x wl wr b (ix2 p q) = Cert.Sage.layer A Sc X WL B WR i := by
  rw [pay2_apply]
  unfold Cert.Sage.layer
  simp only [ha, hs, hx, hwl, hb, hwr]

/-- The fourth call's stored value at entry (p, q) of the block. -/
theorem pay3_apply (a : Vec Ideal S2000x128 .f32) (s : Vec Ideal S2000x1 .f32) (x : Vec Ideal S2000x128 .f32)
    (wl : Vec Ideal S128x128 .f32) (wr : Vec Ideal S128x128 .f32) (b : Vec Ideal S1x128 .f32) (p : Fin 2000) (q : Fin 128) :
    k3_pay1 (F := Ideal) a s x wl wr b (ix2 p q)
      = max ((∑ k : Fin 128, (a (ix2 p k) * s (ix2 p 0)) * wl (ix2 k q)) + (∑ k : Fin 128, x (ix2 p k) * wr (ix2 k q)) + b (ix2 0 q))
          (Ideal.ofBits .f32 0x00000000#32) := by
  unfold k3_pay1
  simp only [shapeCast_self]
  show max ((FloatOps.matmul (F := Ideal) dK none _ _ (constant (F := Ideal) S2000x128 .f32 0x00000000#32) (ix2 p q)
        + FloatOps.matmul (F := Ideal) dK none _ _ (constant (F := Ideal) S2000x128 .f32 0x00000000#32) (ix2 p q))
        + broadcastTo S2000x128 b broadcasts_S1x128_S2000x128 (ix2 p q)) (Ideal.ofBits .f32 0x00000000#32) = _
  rw [mm_apply, mm_apply, bcast_row]
  refine congrArg₂ max (congrArg₂ (· + ·) (congrArg₂ (· + ·) (Finset.sum_congr rfl fun k _ => ?_) (Finset.sum_congr rfl fun k _ => rfl)) rfl) rfl
  show (a (ix2 p k) * broadcastTo S2000x128 s broadcasts_S2000x1_S2000x128 (ix2 p k)) * wl (ix2 k q) = _
  rw [bcast_col]

theorem block_entry3 (a : Vec Ideal S2000x128 .f32) (s : Vec Ideal S2000x1 .f32) (x : Vec Ideal S2000x128 .f32)
    (wl : Vec Ideal S128x128 .f32) (b : Vec Ideal S1x128 .f32) (wr : Vec Ideal S128x128 .f32)
    (A : FVec Ideal Cert.Sage.Snd .f32) (Sc : FVec Ideal Cert.Sage.Sn1 .f32) (X : FVec Ideal Cert.Sage.Snd .f32)
    (WL : FVec Ideal Cert.Sage.Sdd .f32) (B : FVec Ideal Cert.Sage.S1d .f32) (WR : FVec Ideal Cert.Sage.Sdd .f32)
    (p : Fin 2000) (q : Fin 128) (i : Cert.Sage.Snd.Idx)
    (ha : ∀ k : Fin 128, a (ix2 p k) = A (ix2 (i 0) k)) (hs : s (ix2 p 0) = Sc (ix2 (i 0) 0))
    (hx : ∀ k : Fin 128, x (ix2 p k) = X (ix2 (i 0) k)) (hwl : ∀ k : Fin 128, wl (ix2 k q) = WL (ix2 k (i 1)))
    (hb : b (ix2 0 q) = B (ix2 0 (i 1))) (hwr : ∀ k : Fin 128, wr (ix2 k q) = WR (ix2 k (i 1))) :
    k3_pay1 (F := Ideal) a s x wl wr b (ix2 p q) = Cert.Sage.layer A Sc X WL B WR i := by
  rw [pay3_apply]
  unfold Cert.Sage.layer
  simp only [ha, hs, hx, hwl, hb, hwr]

/-- The fifth call's stored value at entry (p, q) of the block. -/
theorem pay4_apply (a : Vec Ideal S2000x128 .f32) (s : Vec Ideal S2000x1 .f32) (x : Vec Ideal S2000x128 .f32)
    (wl : Vec Ideal S128x128 .f32) (wr : Vec Ideal S128x128 .f32) (b : Vec Ideal S1x128 .f32) (p : Fin 2000) (q : Fin 128) :
    k4_pay1 (F := Ideal) a s x wl wr b (ix2 p q)
      = max ((∑ k : Fin 128, (a (ix2 p k) * s (ix2 p 0)) * wl (ix2 k q)) + (∑ k : Fin 128, x (ix2 p k) * wr (ix2 k q)) + b (ix2 0 q))
          (Ideal.ofBits .f32 0x00000000#32) := by
  unfold k4_pay1
  simp only [shapeCast_self]
  show max ((FloatOps.matmul (F := Ideal) dK none _ _ (constant (F := Ideal) S2000x128 .f32 0x00000000#32) (ix2 p q)
        + FloatOps.matmul (F := Ideal) dK none _ _ (constant (F := Ideal) S2000x128 .f32 0x00000000#32) (ix2 p q))
        + broadcastTo S2000x128 b broadcasts_S1x128_S2000x128 (ix2 p q)) (Ideal.ofBits .f32 0x00000000#32) = _
  rw [mm_apply, mm_apply, bcast_row]
  refine congrArg₂ max (congrArg₂ (· + ·) (congrArg₂ (· + ·) (Finset.sum_congr rfl fun k _ => ?_) (Finset.sum_congr rfl fun k _ => rfl)) rfl) rfl
  show (a (ix2 p k) * broadcastTo S2000x128 s broadcasts_S2000x1_S2000x128 (ix2 p k)) * wl (ix2 k q) = _
  rw [bcast_col]

theorem block_entry4 (a : Vec Ideal S2000x128 .f32) (s : Vec Ideal S2000x1 .f32) (x : Vec Ideal S2000x128 .f32)
    (wl : Vec Ideal S128x128 .f32) (b : Vec Ideal S1x128 .f32) (wr : Vec Ideal S128x128 .f32)
    (A : FVec Ideal Cert.Sage.Snd .f32) (Sc : FVec Ideal Cert.Sage.Sn1 .f32) (X : FVec Ideal Cert.Sage.Snd .f32)
    (WL : FVec Ideal Cert.Sage.Sdd .f32) (B : FVec Ideal Cert.Sage.S1d .f32) (WR : FVec Ideal Cert.Sage.Sdd .f32)
    (p : Fin 2000) (q : Fin 128) (i : Cert.Sage.Snd.Idx)
    (ha : ∀ k : Fin 128, a (ix2 p k) = A (ix2 (i 0) k)) (hs : s (ix2 p 0) = Sc (ix2 (i 0) 0))
    (hx : ∀ k : Fin 128, x (ix2 p k) = X (ix2 (i 0) k)) (hwl : ∀ k : Fin 128, wl (ix2 k q) = WL (ix2 k (i 1)))
    (hb : b (ix2 0 q) = B (ix2 0 (i 1))) (hwr : ∀ k : Fin 128, wr (ix2 k q) = WR (ix2 k (i 1))) :
    k4_pay1 (F := Ideal) a s x wl wr b (ix2 p q) = Cert.Sage.layer A Sc X WL B WR i := by
  rw [pay4_apply]
  unfold Cert.Sage.layer
  simp only [ha, hs, hx, hwl, hb, hwr]

/-- The sixth call's stored value at entry (p, q) of the block. -/
theorem pay5_apply (a : Vec Ideal S2000x128 .f32) (s : Vec Ideal S2000x1 .f32) (x : Vec Ideal S2000x128 .f32)
    (wl : Vec Ideal S128x128 .f32) (wr : Vec Ideal S128x128 .f32) (b : Vec Ideal S1x128 .f32) (p : Fin 2000) (q : Fin 128) :
    k5_pay1 (F := Ideal) a s x wl wr b (ix2 p q)
      = max ((∑ k : Fin 128, (a (ix2 p k) * s (ix2 p 0)) * wl (ix2 k q)) + (∑ k : Fin 128, x (ix2 p k) * wr (ix2 k q)) + b (ix2 0 q))
          (Ideal.ofBits .f32 0x00000000#32) := by
  unfold k5_pay1
  simp only [shapeCast_self]
  show max ((FloatOps.matmul (F := Ideal) dK none _ _ (constant (F := Ideal) S2000x128 .f32 0x00000000#32) (ix2 p q)
        + FloatOps.matmul (F := Ideal) dK none _ _ (constant (F := Ideal) S2000x128 .f32 0x00000000#32) (ix2 p q))
        + broadcastTo S2000x128 b broadcasts_S1x128_S2000x128 (ix2 p q)) (Ideal.ofBits .f32 0x00000000#32) = _
  rw [mm_apply, mm_apply, bcast_row]
  refine congrArg₂ max (congrArg₂ (· + ·) (congrArg₂ (· + ·) (Finset.sum_congr rfl fun k _ => ?_) (Finset.sum_congr rfl fun k _ => rfl)) rfl) rfl
  show (a (ix2 p k) * broadcastTo S2000x128 s broadcasts_S2000x1_S2000x128 (ix2 p k)) * wl (ix2 k q) = _
  rw [bcast_col]

theorem block_entry5 (a : Vec Ideal S2000x128 .f32) (s : Vec Ideal S2000x1 .f32) (x : Vec Ideal S2000x128 .f32)
    (wl : Vec Ideal S128x128 .f32) (b : Vec Ideal S1x128 .f32) (wr : Vec Ideal S128x128 .f32)
    (A : FVec Ideal Cert.Sage.Snd .f32) (Sc : FVec Ideal Cert.Sage.Sn1 .f32) (X : FVec Ideal Cert.Sage.Snd .f32)
    (WL : FVec Ideal Cert.Sage.Sdd .f32) (B : FVec Ideal Cert.Sage.S1d .f32) (WR : FVec Ideal Cert.Sage.Sdd .f32)
    (p : Fin 2000) (q : Fin 128) (i : Cert.Sage.Snd.Idx)
    (ha : ∀ k : Fin 128, a (ix2 p k) = A (ix2 (i 0) k)) (hs : s (ix2 p 0) = Sc (ix2 (i 0) 0))
    (hx : ∀ k : Fin 128, x (ix2 p k) = X (ix2 (i 0) k)) (hwl : ∀ k : Fin 128, wl (ix2 k q) = WL (ix2 k (i 1)))
    (hb : b (ix2 0 q) = B (ix2 0 (i 1))) (hwr : ∀ k : Fin 128, wr (ix2 k q) = WR (ix2 k (i 1))) :
    k5_pay1 (F := Ideal) a s x wl wr b (ix2 p q) = Cert.Sage.layer A Sc X WL B WR i := by
  rw [pay5_apply]
  unfold Cert.Sage.layer
  simp only [ha, hs, hx, hwl, hb, hwr]

end Cert.KernelIdeal.SageValue

end
-- ==== Proof.Region0.lean ====
/-
  The first call's output array, whole.

  The call walks 25 grid points; point `t` reads rows 2000·t … 2000·t + 1999 of the neighbour sums, of the per-row
  scales and of the node features, reads the two weight matrices and the bias row whole, and writes rows
  2000·t … 2000·t + 1999 of the output. Row `r` of the output therefore depends only on row `r` of the three row-blocked
  inputs, so every written block is the restriction of ONE function of the whole input arrays — the layer — and the
  25 blocks tile the 50000 rows: the array ends holding the layer of the arrays the call found.
-/
import proofs.«120746_j29394756174084_1_alg».proof.Proof.Gen.KernelIdeal.Frame
import proofs.«120746_j29394756174084_1_alg».proof.Proof.Payload
import Idealize.ShloMosaic.Lib.Pipeline.Value

set_option maxRecDepth 16384

noncomputable section

namespace Cert.KernelIdeal.SageValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin0 : (![0, 0] : Fin 2 → Nat) = fun _ => 0 := funext fun a => by fin_cases a <;> rfl

/-- The printed index maps over the grid: the three row-blocked inputs move with the output's row block and sit at
    column block zero; the weights and the bias stay at block zero; the output's row block is below 25. -/
theorem blocks0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 24 :=
  (by decide +kernel : ∀ t : Fin grid0.N, _)

/-- Every row block is some point's. -/
theorem rowblock_onto0 : ∀ (q0 : Fin 25), ∃ t : Fin cfg0.N, win0_6.index t = ![q0.val, 0] :=
  (by decide +kernel : ∀ (q0 : Fin 25), ∃ t : Fin grid0.N, win0_6.index t = ![q0.val, 0])

/-- What point `t` writes back is block `t` of the layer of the arrays as the call finds them. -/
theorem written0 (c : Dev nD) (t : Fin cfg0.N) :
    (dat0 V c).flushed 6 t = ((cfg0.win 6).blk t).view.read (Elt Ideal)
      (Cert.Sage.layer (V c main_v13) (V c main_v22) (V c main_arg0) (V c main_v24) (V c main_v27) (V c main_v29)) := by
  show (cfg0.win 6).cut (grid0.coords t) ((dat0 V c).after 6 t) = _
  rw [after0_6]
  unfold out0_6
  rw [View.canon_unit_zero origin0]
  simp only [View.ld_unit_zero (S := S2000x128) origin0, View.ld_unit_zero (S := S2000x1) origin0,
    View.ld_unit_zero (S := S128x128) origin0, View.ld_unit_zero (S := S1x128) origin0]
  obtain ⟨e00, e01, e10, e11, e20, e21, e30, e31, e40, e41, e50, e51, e61, e60⟩ := blocks0 t
  funext j
  obtain ⟨p, q, rfl⟩ : ∃ (p : Fin 2000) (q : Fin 128), j = ix2 p q := ⟨j 0, j 1, eq_ix2 j⟩
  refine block_entry0 _ _ _ _ _ _ _ _ _ _ _ _ p q (((cfg0.win 6).blk t).view.emb (ix2 p q)) ?_ ?_ ?_ ?_ ?_ ?_
  · intro k
    show V c main_v13 (((cfg0.win 0).blk t).view.emb (ix2 p k)) = V c main_v13 _
    refine congrArg _ (funext fun a => Fin.ext ?_)
    match a with
    | ⟨0, _⟩ => show win0_0.index t (0 : Fin 2) * 2000 + 1 * p.val = win0_6.index t (0 : Fin 2) * 2000 + 1 * p.val; omega
    | ⟨1, _⟩ => show win0_0.index t (1 : Fin 2) * 128 + 1 * k.val = k.val; omega
  · show V c main_v22 (((cfg0.win 1).blk t).view.emb (ix2 p 0)) = V c main_v22 _
    refine congrArg _ (funext fun a => Fin.ext ?_)
    match a with
    | ⟨0, _⟩ => show win0_1.index t (0 : Fin 2) * 2000 + 1 * p.val = win0_6.index t (0 : Fin 2) * 2000 + 1 * p.val; omega
    | ⟨1, _⟩ => show win0_1.index t (1 : Fin 2) * 1 + 1 * 0 = 0; omega
  · intro k
    show V c main_arg0 (((cfg0.win 2).blk t).view.emb (ix2 p k)) = V c main_arg0 _
    refine congrArg _ (funext fun a => Fin.ext ?_)
    match a with
    | ⟨0, _⟩ => show win0_2.index t (0 : Fin 2) * 2000 + 1 * p.val = win0_6.index t (0 : Fin 2) * 2000 + 1 * p.val; omega
    | ⟨1, _⟩ => show win0_2.index t (1 : Fin 2) * 128 + 1 * k.val = k.val; omega
  · intro k
    show V c main_v24 (((cfg0.win 3).blk t).view.emb (ix2 k q)) = V c main_v24 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  · show V c main_v27 (((cfg0.win 4).blk t).view.emb (ix2 0 q)) = V c main_v27 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega
  · intro k
    show V c main_v29 (((cfg0.win 5).blk t).view.emb (ix2 k q)) = V c main_v29 _
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = win0_6.index t (1 : Fin 2) * 128 + 1 * q.val; omega

/-- An index of the output array lies in point `t`'s block iff each coordinate lies in the block's range. -/
theorem in_block0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v30).slice (win0_6.rect t)).set ↔ _
  rw [View.set_slice_whole, Rect.mem_set_unit]
  exact Iff.rfl

/-- The 25 row blocks tile the array: row `r` is in the block of point `r / 2000`. -/
theorem tiled0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := rowblock_onto0 ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [in_block0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after the call: the layer of the arrays the call found. -/
theorem whole0 (c : Dev nD) : (dat0 V c).arrAt 6 cfg0.N
    = Cert.Sage.layer (V c main_v13) (V c main_v22) (V c main_arg0) (V c main_v24) (V c main_v27) (V c main_v29) :=
  (dat0 V c).arrAt_eq_of_cover 6 _ (fun t _ => written0 V c t) tiled0

end Cert.KernelIdeal.SageValue

end
-- ==== Proof.Region1.lean ====
/-
  The second call's output array, whole.

  The call walks 25 grid points; point `t` reads rows 2000·t … 2000·t + 1999 of the neighbour sums, of the per-row
  scales and of the node features, reads the two weight matrices and the bias row whole, and writes rows
  2000·t … 2000·t + 1999 of the output. Row `r` of the output therefore depends only on row `r` of the three row-blocked
  inputs, so every written block is the restriction of ONE function of the whole input arrays — the layer — and the
  25 blocks tile the 50000 rows: the array ends holding the layer of the arrays the call found.
-/
import proofs.«120746_j29394756174084_1_alg».proof.Proof.Gen.KernelIdeal.Frame
import proofs.«120746_j29394756174084_1_alg».proof.Proof.Payload
import Idealize.ShloMosaic.Lib.Pipeline.Value

set_option maxRecDepth 16384

noncomputable section

namespace Cert.KernelIdeal.SageValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin1 : (![0, 0] : Fin 2 → Nat) = fun _ => 0 := funext fun a => by fin_cases a <;> rfl

/-- The printed index maps over the grid: the three row-blocked inputs move with the output's row block and sit at
    column block zero; the weights and the bias stay at block zero; the output's row block is below 25. -/
theorem blocks1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 24 :=
  (by decide +kernel : ∀ t : Fin grid1.N, _)

/-- Every row block is some point's. -/
theorem rowblock_onto1 : ∀ (q0 : Fin 25), ∃ t : Fin cfg1.N, win1_6.index t = ![q0.val, 0] :=
  (by decide +kernel : ∀ (q0 : Fin 25), ∃ t : Fin grid1.N, win1_6.index t = ![q0.val, 0])

/-- What point `t` writes back is block `t` of the layer of the arrays as the call finds them. -/
theorem written1 (c : Dev nD) (t : Fin cfg1.N) :
    (dat1 V c).flushed 6 t = ((cfg1.win 6).blk t).view.read (Elt Ideal)
      (Cert.Sage.layer (V c main_v44) (V c main_v53) (V c main_arg1) (V c main_v55) (V c main_v58) (V c main_v60)) := by
  show (cfg1.win 6).cut (grid1.coords t) ((dat1 V c).after 6 t) = _
  rw [after1_6]
  unfold out1_6
  rw [View.canon_unit_zero origin1]
  simp only [View.ld_unit_zero (S := S2000x128) origin1, View.ld_unit_zero (S := S2000x1) origin1,
    View.ld_unit_zero (S := S128x128) origin1, View.ld_unit_zero (S := S1x128) origin1]
  obtain ⟨e00, e01, e10, e11, e20, e21, e30, e31, e40, e41, e50, e51, e61, e60⟩ := blocks1 t
  funext j
  obtain ⟨p, q, rfl⟩ : ∃ (p : Fin 2000) (q : Fin 128), j = ix2 p q := ⟨j 0, j 1, eq_ix2 j⟩
  refine block_entry1 _ _ _ _ _ _ _ _ _ _ _ _ p q (((cfg1.win 6).blk t).view.emb (ix2 p q)) ?_ ?_ ?_ ?_ ?_ ?_
  · intro k
    show V c main_v44 (((cfg1.win 0).blk t).view.emb (ix2 p k)) = V c main_v44 _
    refine congrArg _ (funext fun a => Fin.ext ?_)
    match a with
    | ⟨0, _⟩ => show win1_0.index t (0 : Fin 2) * 2000 + 1 * p.val = win1_6.index t (0 : Fin 2) * 2000 + 1 * p.val; omega
    | ⟨1, _⟩ => show win1_0.index t (1 : Fin 2) * 128 + 1 * k.val = k.val; omega
  · show V c main_v53 (((cfg1.win 1).blk t).view.emb (ix2 p 0)) = V c main_v53 _
    refine congrArg _ (funext fun a => Fin.ext ?_)
    match a with
    | ⟨0, _⟩ => show win1_1.index t (0 : Fin 2) * 2000 + 1 * p.val = win1_6.index t (0 : Fin 2) * 2000 + 1 * p.val; omega
    | ⟨1, _⟩ => show win1_1.index t (1 : Fin 2) * 1 + 1 * 0 = 0; omega
  · intro k
    show V c main_arg1 (((cfg1.win 2).blk t).view.emb (ix2 p k)) = V c main_arg1 _
    refine congrArg _ (funext fun a => Fin.ext ?_)
    match a with
    | ⟨0, _⟩ => show win1_2.index t (0 : Fin 2) * 2000 + 1 * p.val = win1_6.index t (0 : Fin 2) * 2000 + 1 * p.val; omega
    | ⟨1, _⟩ => show win1_2.index t (1 : Fin 2) * 128 + 1 * k.val = k.val; omega
  · intro k
    show V c main_v55 (((cfg1.win 3).blk t).view.emb (ix2 k q)) = V c main_v55 _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_6.index t (1 : Fin 2) * 128 + 1 * q.val; omega
  · show V c main_v58 (((cfg1.win 4).blk t).view.emb (ix2 0 q)) = V c main_v58 _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  · intro k
    show V c main_v60 (((cfg1.win 5).blk t).view.emb (ix2 k q)) = V c main_v60 _
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * q.val = win1_6.index t (1 : Fin 2) * 128 + 1 * q.val; omega

/-- An index of the output array lies in point `t`'s block iff each coordinate lies in the block's range. -/
theorem in_block1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v61).slice (win1_6.rect t)).set ↔ _
  rw [View.set_slice_whole, Rect.mem_set_unit]
  exact Iff.rfl

/-- The 25 row blocks tile the array: row `r` is in the block of point `r / 2000`. -/
theorem tiled1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := rowblock_onto1 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [in_block1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The output array after the call: the layer of the arrays the call found. -/
theorem whole1 (c : Dev nD) : (dat1 V c).arrAt 6 cfg1.N
    = Cert.Sage.layer (V c main_v44) (V c main_v53) (V c main_arg1) (V c main_v55) (V c main_v58) (V c main_v60) :=
  (dat1 V c).arrAt_eq_of_cover 6 _ (fun t _ => written1 V c t) tiled1

end Cert.KernelIdeal.SageValue

end
-- ==== Proof.Region2.lean ====
/-
  The third call's output array, whole.

  The call walks 25 grid points; point `t` reads rows 2000·t … 2000·t + 1999 of the neighbour sums, of the per-row
  scales and of the node features, reads the two weight matrices and the bias row whole, and writes rows
  2000·t … 2000·t + 1999 of the output. Row `r` of the output therefore depends only on row `r` of the three row-blocked
  inputs, so every written block is the restriction of ONE function of the whole input arrays — the layer — and the
  25 blocks tile the 50000 rows: the array ends holding the layer of the arrays the call found.
-/
import proofs.«120746_j29394756174084_1_alg».proof.Proof.Gen.KernelIdeal.Frame
import proofs.«120746_j29394756174084_1_alg».proof.Proof.Payload
import Idealize.ShloMosaic.Lib.Pipeline.Value

set_option maxRecDepth 16384

noncomputable section

namespace Cert.KernelIdeal.SageValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the grid: the three row-blocked inputs move with the output's row block and sit at
    column block zero; the weights and the bias stay at block zero; the output's row block is below 25. -/
theorem blocks2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 24 :=
  (by decide +kernel : ∀ t : Fin grid2.N, _)

/-- Every row block is some point's. -/
theorem rowblock_onto2 : ∀ (q0 : Fin 25), ∃ t : Fin cfg2.N, win2_6.index t = ![q0.val, 0] :=
  (by decide +kernel : ∀ (q0 : Fin 25), ∃ t : Fin grid2.N, win2_6.index t = ![q0.val, 0])

/-- What point `t` writes back is block `t` of the layer of the arrays as the call finds them. -/
theorem written2 (c : Dev nD) (t : Fin cfg2.N) :
    (dat2 V c).flushed 6 t = ((cfg2.win 6).blk t).view.read (Elt Ideal)
      (Cert.Sage.layer (V c main_v75) (V c main_v84) (V c main_v30) (V c main_v86) (V c main_v89) (V c main_v91)) := by
  show (cfg2.win 6).cut (grid2.coords t) ((dat2 V c).after 6 t) = _
  rw [after2_6]
  unfold out2_6
  rw [View.canon_unit_zero origin2]
  simp only [View.ld_unit_zero (S := S2000x128) origin2, View.ld_unit_zero (S := S2000x1) origin2,
    View.ld_unit_zero (S := S128x128) origin2, View.ld_unit_zero (S := S1x128) origin2]
  obtain ⟨e00, e01, e10, e11, e20, e21, e30, e31, e40, e41, e50, e51, e61, e60⟩ := blocks2 t
  funext j
  obtain ⟨p, q, rfl⟩ : ∃ (p : Fin 2000) (q : Fin 128), j = ix2 p q := ⟨j 0, j 1, eq_ix2 j⟩
  refine block_entry2 _ _ _ _ _ _ _ _ _ _ _ _ p q (((cfg2.win 6).blk t).view.emb (ix2 p q)) ?_ ?_ ?_ ?_ ?_ ?_
  · intro k
    show V c main_v75 (((cfg2.win 0).blk t).view.emb (ix2 p k)) = V c main_v75 _
    refine congrArg _ (funext fun a => Fin.ext ?_)
    match a with
    | ⟨0, _⟩ => show win2_0.index t (0 : Fin 2) * 2000 + 1 * p.val = win2_6.index t (0 : Fin 2) * 2000 + 1 * p.val; omega
    | ⟨1, _⟩ => show win2_0.index t (1 : Fin 2) * 128 + 1 * k.val = k.val; omega
  · show V c main_v84 (((cfg2.win 1).blk t).view.emb (ix2 p 0)) = V c main_v84 _
    refine congrArg _ (funext fun a => Fin.ext ?_)
    match a with
    | ⟨0, _⟩ => show win2_1.index t (0 : Fin 2) * 2000 + 1 * p.val = win2_6.index t (0 : Fin 2) * 2000 + 1 * p.val; omega
    | ⟨1, _⟩ => show win2_1.index t (1 : Fin 2) * 1 + 1 * 0 = 0; omega
  · intro k
    show V c main_v30 (((cfg2.win 2).blk t).view.emb (ix2 p k)) = V c main_v30 _
    refine congrArg _ (funext fun a => Fin.ext ?_)
    match a with
    | ⟨0, _⟩ => show win2_2.index t (0 : Fin 2) * 2000 + 1 * p.val = win2_6.index t (0 : Fin 2) * 2000 + 1 * p.val; omega
    | ⟨1, _⟩ => show win2_2.index t (1 : Fin 2) * 128 + 1 * k.val = k.val; omega
  · intro k
    show V c main_v86 (((cfg2.win 3).blk t).view.emb (ix2 k q)) = V c main_v86 _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = win2_6.index t (1 : Fin 2) * 128 + 1 * q.val; omega
  · show V c main_v89 (((cfg2.win 4).blk t).view.emb (ix2 0 q)) = V c main_v89 _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = win2_6.index t (1 : Fin 2) * 128 + 1 * q.val; omega
  · intro k
    show V c main_v91 (((cfg2.win 5).blk t).view.emb (ix2 k q)) = V c main_v91 _
    refine congrArg _ (funext fun a => Fin.ext ?_)
    match a with
    | ⟨0, _⟩ => show win2_5.index t (0 : Fin 2) * 128 + 1 * k.val = k.val; omega
    | ⟨1, _⟩ => show win2_5.index t (1 : Fin 2) * 128 + 1 * q.val = win2_6.index t (1 : Fin 2) * 128 + 1 * q.val; omega

/-- An index of the output array lies in point `t`'s block iff each coordinate lies in the block's range. -/
theorem in_block2 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v92).slice (win2_6.rect t)).set ↔ _
  rw [View.set_slice_whole, Rect.mem_set_unit]
  exact Iff.rfl

/-- The 25 row blocks tile the array: row `r` is in the block of point `r / 2000`. -/
theorem tiled2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := rowblock_onto2 ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [in_block2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The output array after the call: the layer of the arrays the call found. -/
theorem whole2 (c : Dev nD) : (dat2 V c).arrAt 6 cfg2.N
    = Cert.Sage.layer (V c main_v75) (V c main_v84) (V c main_v30) (V c main_v86) (V c main_v89) (V c main_v91) :=
  (dat2 V c).arrAt_eq_of_cover 6 _ (fun t _ => written2 V c t) tiled2

end Cert.KernelIdeal.SageValue

end
-- ==== Proof.Region3.lean ====
/-
  The fourth call's output array, whole.

  The call walks 25 grid points; point `t` reads rows 2000·t … 2000·t + 1999 of the neighbour sums, of the per-row
  scales and of the node features, reads the two weight matrices and the bias row whole, and writes rows
  2000·t … 2000·t + 1999 of the output. Row `r` of the output therefore depends only on row `r` of the three row-blocked
  inputs, so every written block is the restriction of ONE function of the whole input arrays — the layer — and the
  25 blocks tile the 50000 rows: the array ends holding the layer of the arrays the call found.
-/
import proofs.«120746_j29394756174084_1_alg».proof.Proof.Gen.KernelIdeal.Frame
import proofs.«120746_j29394756174084_1_alg».proof.Proof.Payload
import Idealize.ShloMosaic.Lib.Pipeline.Value

set_option maxRecDepth 16384

noncomputable section

namespace Cert.KernelIdeal.SageValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin3 : (![0, 0] : Fin 2 → Nat) = fun _ => 0 := funext fun a => by fin_cases a <;> rfl

/-- The printed index maps over the grid: the three row-blocked inputs move with the output's row block and sit at
    column block zero; the weights and the bias stay at block zero; the output's row block is below 25. -/
theorem blocks3 : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = win3_6.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 ∧ win3_6.index t (0 : Fin 2) ≤ 24 :=
  (by decide +kernel : ∀ t : Fin grid3.N, _)

/-- Every row block is some point's. -/
theorem rowblock_onto3 : ∀ (q0 : Fin 25), ∃ t : Fin cfg3.N, win3_6.index t = ![q0.val, 0] :=
  (by decide +kernel : ∀ (q0 : Fin 25), ∃ t : Fin grid3.N, win3_6.index t = ![q0.val, 0])

/-- What point `t` writes back is block `t` of the layer of the arrays as the call finds them. -/
theorem written3 (c : Dev nD) (t : Fin cfg3.N) :
    (dat3 V c).flushed 6 t = ((cfg3.win 6).blk t).view.read (Elt Ideal)
      (Cert.Sage.layer (V c main_v106) (V c main_v115) (V c main_v61) (V c main_v117) (V c main_v120) (V c main_v122)) := by
  show (cfg3.win 6).cut (grid3.coords t) ((dat3 V c).after 6 t) = _
  rw [after3_6]
  unfold out3_6
  rw [View.canon_unit_zero origin3]
  simp only [View.ld_unit_zero (S := S2000x128) origin3, View.ld_unit_zero (S := S2000x1) origin3,
    View.ld_unit_zero (S := S128x128) origin3, View.ld_unit_zero (S := S1x128) origin3]
  obtain ⟨e00, e01, e10, e11, e20, e21, e30, e31, e40, e41, e50, e51, e61, e60⟩ := blocks3 t
  funext j
  obtain ⟨p, q, rfl⟩ : ∃ (p : Fin 2000) (q : Fin 128), j = ix2 p q := ⟨j 0, j 1, eq_ix2 j⟩
  refine block_entry3 _ _ _ _ _ _ _ _ _ _ _ _ p q (((cfg3.win 6).blk t).view.emb (ix2 p q)) ?_ ?_ ?_ ?_ ?_ ?_
  · intro k
    show V c main_v106 (((cfg3.win 0).blk t).view.emb (ix2 p k)) = V c main_v106 _
    refine congrArg _ (funext fun a => Fin.ext ?_)
    match a with
    | ⟨0, _⟩ => show win3_0.index t (0 : Fin 2) * 2000 + 1 * p.val = win3_6.index t (0 : Fin 2) * 2000 + 1 * p.val; omega
    | ⟨1, _⟩ => show win3_0.index t (1 : Fin 2) * 128 + 1 * k.val = k.val; omega
  · show V c main_v115 (((cfg3.win 1).blk t).view.emb (ix2 p 0)) = V c main_v115 _
    refine congrArg _ (funext fun a => Fin.ext ?_)
    match a with
    | ⟨0, _⟩ => show win3_1.index t (0 : Fin 2) * 2000 + 1 * p.val = win3_6.index t (0 : Fin 2) * 2000 + 1 * p.val; omega
    | ⟨1, _⟩ => show win3_1.index t (1 : Fin 2) * 1 + 1 * 0 = 0; omega
  · intro k
    show V c main_v61 (((cfg3.win 2).blk t).view.emb (ix2 p k)) = V c main_v61 _
    refine congrArg _ (funext fun a => Fin.ext ?_)
    match a with
    | ⟨0, _⟩ => show win3_2.index t (0 : Fin 2) * 2000 + 1 * p.val = win3_6.index t (0 : Fin 2) * 2000 + 1 * p.val; omega
    | ⟨1, _⟩ => show win3_2.index t (1 : Fin 2) * 128 + 1 * k.val = k.val; omega
  · intro k
    show V c main_v117 (((cfg3.win 3).blk t).view.emb (ix2 k q)) = V c main_v117 _
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * q.val = win3_6.index t (1 : Fin 2) * 128 + 1 * q.val; omega
  · show V c main_v120 (((cfg3.win 4).blk t).view.emb (ix2 0 q)) = V c main_v120 _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  · intro k
    show V c main_v122 (((cfg3.win 5).blk t).view.emb (ix2 k q)) = V c main_v122 _
    refine congrArg _ (funext fun a => Fin.ext ?_)
    match a with
    | ⟨0, _⟩ => show win3_5.index t (0 : Fin 2) * 128 + 1 * k.val = k.val; omega
    | ⟨1, _⟩ => show win3_5.index t (1 : Fin 2) * 128 + 1 * q.val = win3_6.index t (1 : Fin 2) * 128 + 1 * q.val; omega

/-- An index of the output array lies in point `t`'s block iff each coordinate lies in the block's range. -/
theorem in_block3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v123).slice (win3_6.rect t)).set ↔ _
  rw [View.set_slice_whole, Rect.mem_set_unit]
  exact Iff.rfl

/-- The 25 row blocks tile the array: row `r` is in the block of point `r / 2000`. -/
theorem tiled3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ := rowblock_onto3 ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [in_block3]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- The output array after the call: the layer of the arrays the call found. -/
theorem whole3 (c : Dev nD) : (dat3 V c).arrAt 6 cfg3.N
    = Cert.Sage.layer (V c main_v106) (V c main_v115) (V c main_v61) (V c main_v117) (V c main_v120) (V c main_v122) :=
  (dat3 V c).arrAt_eq_of_cover 6 _ (fun t _ => written3 V c t) tiled3

end Cert.KernelIdeal.SageValue

end
-- ==== Proof.Region4.lean ====
/-
  The fifth call's output array, whole.

  The call walks 25 grid points; point `t` reads rows 2000·t … 2000·t + 1999 of the neighbour sums, of the per-row
  scales and of the node features, reads the two weight matrices and the bias row whole, and writes rows
  2000·t … 2000·t + 1999 of the output. Row `r` of the output therefore depends only on row `r` of the three row-blocked
  inputs, so every written block is the restriction of ONE function of the whole input arrays — the layer — and the
  25 blocks tile the 50000 rows: the array ends holding the layer of the arrays the call found.
-/
import proofs.«120746_j29394756174084_1_alg».proof.Proof.Gen.KernelIdeal.Frame
import proofs.«120746_j29394756174084_1_alg».proof.Proof.Payload
import Idealize.ShloMosaic.Lib.Pipeline.Value

set_option maxRecDepth 16384

noncomputable section

namespace Cert.KernelIdeal.SageValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin4 : (![0, 0] : Fin 2 → Nat) = fun _ => 0 := funext fun a => by fin_cases a <;> rfl

/-- The printed index maps over the grid: the three row-blocked inputs move with the output's row block and sit at
    column block zero; the weights and the bias stay at block zero; the output's row block is below 25. -/
theorem blocks4 : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (1 : Fin 2) = 0 ∧ win4_6.index t (0 : Fin 2) ≤ 24 :=
  (by decide +kernel : ∀ t : Fin grid4.N, _)

/-- Every row block is some point's. -/
theorem rowblock_onto4 : ∀ (q0 : Fin 25), ∃ t : Fin cfg4.N, win4_6.index t = ![q0.val, 0] :=
  (by decide +kernel : ∀ (q0 : Fin 25), ∃ t : Fin grid4.N, win4_6.index t = ![q0.val, 0])

/-- What point `t` writes back is block `t` of the layer of the arrays as the call finds them. -/
theorem written4 (c : Dev nD) (t : Fin cfg4.N) :
    (dat4 V c).flushed 6 t = ((cfg4.win 6).blk t).view.read (Elt Ideal)
      (Cert.Sage.layer (V c main_v137) (V c main_v146) (V c main_v92) (V c main_v148) (V c main_v151) (V c main_v153)) := by
  show (cfg4.win 6).cut (grid4.coords t) ((dat4 V c).after 6 t) = _
  rw [after4_6]
  unfold out4_6
  rw [View.canon_unit_zero origin4]
  simp only [View.ld_unit_zero (S := S2000x128) origin4, View.ld_unit_zero (S := S2000x1) origin4,
    View.ld_unit_zero (S := S128x128) origin4, View.ld_unit_zero (S := S1x128) origin4]
  obtain ⟨e00, e01, e10, e11, e20, e21, e30, e31, e40, e41, e50, e51, e61, e60⟩ := blocks4 t
  funext j
  obtain ⟨p, q, rfl⟩ : ∃ (p : Fin 2000) (q : Fin 128), j = ix2 p q := ⟨j 0, j 1, eq_ix2 j⟩
  refine block_entry4 _ _ _ _ _ _ _ _ _ _ _ _ p q (((cfg4.win 6).blk t).view.emb (ix2 p q)) ?_ ?_ ?_ ?_ ?_ ?_
  · intro k
    show V c main_v137 (((cfg4.win 0).blk t).view.emb (ix2 p k)) = V c main_v137 _
    refine congrArg _ (funext fun a => Fin.ext ?_)
    match a with
    | ⟨0, _⟩ => show win4_0.index t (0 : Fin 2) * 2000 + 1 * p.val = win4_6.index t (0 : Fin 2) * 2000 + 1 * p.val; omega
    | ⟨1, _⟩ => show win4_0.index t (1 : Fin 2) * 128 + 1 * k.val = k.val; omega
  · show V c main_v146 (((cfg4.win 1).blk t).view.emb (ix2 p 0)) = V c main_v146 _
    refine congrArg _ (funext fun a => Fin.ext ?_)
    match a with
    | ⟨0, _⟩ => show win4_1.index t (0 : Fin 2) * 2000 + 1 * p.val = win4_6.index t (0 : Fin 2) * 2000 + 1 * p.val; omega
    | ⟨1, _⟩ => show win4_1.index t (1 : Fin 2) * 1 + 1 * 0 = 0; omega
  · intro k
    show V c main_v92 (((cfg4.win 2).blk t).view.emb (ix2 p k)) = V c main_v92 _
    refine congrArg _ (funext fun a => Fin.ext ?_)
    match a with
    | ⟨0, _⟩ => show win4_2.index t (0 : Fin 2) * 2000 + 1 * p.val = win4_6.index t (0 : Fin 2) * 2000 + 1 * p.val; omega
    | ⟨1, _⟩ => show win4_2.index t (1 : Fin 2) * 128 + 1 * k.val = k.val; omega
  · intro k
    show V c main_v148 (((cfg4.win 3).blk t).view.emb (ix2 k q)) = V c main_v148 _
    refine congrArg _ (funext fun a => Fin.ext ?_)
    match a with
    | ⟨0, _⟩ => show win4_3.index t (0 : Fin 2) * 128 + 1 * k.val = k.val; omega
    | ⟨1, _⟩ => show win4_3.index t (1 : Fin 2) * 128 + 1 * q.val = win4_6.index t (1 : Fin 2) * 128 + 1 * q.val; omega
  · show V c main_v151 (((cfg4.win 4).blk t).view.emb (ix2 0 q)) = V c main_v151 _
    refine congrArg _ (funext fun a => Fin.ext ?_)
    match a with
    | ⟨0, _⟩ => show win4_4.index t (0 : Fin 2) * 1 + 1 * 0 = 0; omega
    | ⟨1, _⟩ => show win4_4.index t (1 : Fin 2) * 128 + 1 * q.val = win4_6.index t (1 : Fin 2) * 128 + 1 * q.val; omega
  · intro k
    show V c main_v153 (((cfg4.win 5).blk t).view.emb (ix2 k q)) = V c main_v153 _
    refine congrArg _ (funext fun a => Fin.ext ?_)
    match a with
    | ⟨0, _⟩ => show win4_5.index t (0 : Fin 2) * 128 + 1 * k.val = k.val; omega
    | ⟨1, _⟩ => show win4_5.index t (1 : Fin 2) * 128 + 1 * q.val = win4_6.index t (1 : Fin 2) * 128 + 1 * q.val; omega

/-- An index of the output array lies in point `t`'s block iff each coordinate lies in the block's range. -/
theorem in_block4 (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v154).slice (win4_6.rect t)).set ↔ _
  rw [View.set_slice_whole, Rect.mem_set_unit]
  exact Iff.rfl

/-- The 25 row blocks tile the array: row `r` is in the block of point `r / 2000`. -/
theorem tiled4 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht⟩ := rowblock_onto4 ⟨(i 0).val / 2000, by omega⟩
  have q0 : win4_6.index t (0 : Fin 2) = (i 0).val / 2000 := congrFun ht 0
  have q1 : win4_6.index t (1 : Fin 2) = 0 := congrFun ht 1
  refine ⟨t, flush4_6 t, ?_⟩
  rw [in_block4]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 128 ≤ (i 1).val ∧ (i 1).val < win4_6.index t (1 : Fin 2) * 128 + 128; omega

/-- The output array after the call: the layer of the arrays the call found. -/
theorem whole4 (c : Dev nD) : (dat4 V c).arrAt 6 cfg4.N
    = Cert.Sage.layer (V c main_v137) (V c main_v146) (V c main_v92) (V c main_v148) (V c main_v151) (V c main_v153) :=
  (dat4 V c).arrAt_eq_of_cover 6 _ (fun t _ => written4 V c t) tiled4

end Cert.KernelIdeal.SageValue

end
-- ==== Proof.Region5.lean ====
/-
  The sixth call's output array, whole.

  The call walks 25 grid points; point `t` reads rows 2000·t … 2000·t + 1999 of the neighbour sums, of the per-row
  scales and of the node features, reads the two weight matrices and the bias row whole, and writes rows
  2000·t … 2000·t + 1999 of the output. Row `r` of the output therefore depends only on row `r` of the three row-blocked
  inputs, so every written block is the restriction of ONE function of the whole input arrays — the layer — and the
  25 blocks tile the 50000 rows: the array ends holding the layer of the arrays the call found.
-/
import proofs.«120746_j29394756174084_1_alg».proof.Proof.Gen.KernelIdeal.Frame
import proofs.«120746_j29394756174084_1_alg».proof.Proof.Payload
import Idealize.ShloMosaic.Lib.Pipeline.Value

set_option maxRecDepth 16384

noncomputable section

namespace Cert.KernelIdeal.SageValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin5 : (![0, 0] : Fin 2 → Nat) = fun _ => 0 := funext fun a => by fin_cases a <;> rfl

/-- The printed index maps over the grid: the three row-blocked inputs move with the output's row block and sit at
    column block zero; the weights and the bias stay at block zero; the output's row block is below 25. -/
theorem blocks5 : ∀ t : Fin cfg5.N,
    win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 2) = win5_6.index t (0 : Fin 2) ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (1 : Fin 2) = 0 ∧ win5_6.index t (0 : Fin 2) ≤ 24 :=
  (by decide +kernel : ∀ t : Fin grid5.N, _)

/-- Every row block is some point's. -/
theorem rowblock_onto5 : ∀ (q0 : Fin 25), ∃ t : Fin cfg5.N, win5_6.index t = ![q0.val, 0] :=
  (by decide +kernel : ∀ (q0 : Fin 25), ∃ t : Fin grid5.N, win5_6.index t = ![q0.val, 0])

/-- What point `t` writes back is block `t` of the layer of the arrays as the call finds them. -/
theorem written5 (c : Dev nD) (t : Fin cfg5.N) :
    (dat5 V c).flushed 6 t = ((cfg5.win 6).blk t).view.read (Elt Ideal)
      (Cert.Sage.layer (V c main_v168) (V c main_v177) (V c main_v123) (V c main_v179) (V c main_v182) (V c main_v184)) := by
  show (cfg5.win 6).cut (grid5.coords t) ((dat5 V c).after 6 t) = _
  rw [after5_6]
  unfold out5_6
  rw [View.canon_unit_zero origin5]
  simp only [View.ld_unit_zero (S := S2000x128) origin5, View.ld_unit_zero (S := S2000x1) origin5,
    View.ld_unit_zero (S := S128x128) origin5, View.ld_unit_zero (S := S1x128) origin5]
  obtain ⟨e00, e01, e10, e11, e20, e21, e30, e31, e40, e41, e50, e51, e61, e60⟩ := blocks5 t
  funext j
  obtain ⟨p, q, rfl⟩ : ∃ (p : Fin 2000) (q : Fin 128), j = ix2 p q := ⟨j 0, j 1, eq_ix2 j⟩
  refine block_entry5 _ _ _ _ _ _ _ _ _ _ _ _ p q (((cfg5.win 6).blk t).view.emb (ix2 p q)) ?_ ?_ ?_ ?_ ?_ ?_
  · intro k
    show V c main_v168 (((cfg5.win 0).blk t).view.emb (ix2 p k)) = V c main_v168 _
    refine congrArg _ (funext fun a => Fin.ext ?_)
    match a with
    | ⟨0, _⟩ => show win5_0.index t (0 : Fin 2) * 2000 + 1 * p.val = win5_6.index t (0 : Fin 2) * 2000 + 1 * p.val; omega
    | ⟨1, _⟩ => show win5_0.index t (1 : Fin 2) * 128 + 1 * k.val = k.val; omega
  · show V c main_v177 (((cfg5.win 1).blk t).view.emb (ix2 p 0)) = V c main_v177 _
    refine congrArg _ (funext fun a => Fin.ext ?_)
    match a with
    | ⟨0, _⟩ => show win5_1.index t (0 : Fin 2) * 2000 + 1 * p.val = win5_6.index t (0 : Fin 2) * 2000 + 1 * p.val; omega
    | ⟨1, _⟩ => show win5_1.index t (1 : Fin 2) * 1 + 1 * 0 = 0; omega
  · intro k
    show V c main_v123 (((cfg5.win 2).blk t).view.emb (ix2 p k)) = V c main_v123 _
    refine congrArg _ (funext fun a => Fin.ext ?_)
    match a with
    | ⟨0, _⟩ => show win5_2.index t (0 : Fin 2) * 2000 + 1 * p.val = win5_6.index t (0 : Fin 2) * 2000 + 1 * p.val; omega
    | ⟨1, _⟩ => show win5_2.index t (1 : Fin 2) * 128 + 1 * k.val = k.val; omega
  · intro k
    show V c main_v179 (((cfg5.win 3).blk t).view.emb (ix2 k q)) = V c main_v179 _
    refine congrArg _ (funext fun a => Fin.ext ?_)
    match a with
    | ⟨0, _⟩ => show win5_3.index t (0 : Fin 2) * 128 + 1 * k.val = k.val; omega
    | ⟨1, _⟩ => show win5_3.index t (1 : Fin 2) * 128 + 1 * q.val = win5_6.index t (1 : Fin 2) * 128 + 1 * q.val; omega
  · show V c main_v182 (((cfg5.win 4).blk t).view.emb (ix2 0 q)) = V c main_v182 _
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = win5_6.index t (1 : Fin 2) * 128 + 1 * q.val; omega
  · intro k
    show V c main_v184 (((cfg5.win 5).blk t).view.emb (ix2 k q)) = V c main_v184 _
    refine congrArg _ (funext fun a => Fin.ext ?_)
    match a with
    | ⟨0, _⟩ => show win5_5.index t (0 : Fin 2) * 128 + 1 * k.val = k.val; omega
    | ⟨1, _⟩ => show win5_5.index t (1 : Fin 2) * 128 + 1 * q.val = win5_6.index t (1 : Fin 2) * 128 + 1 * q.val; omega

/-- An index of the output array lies in point `t`'s block iff each coordinate lies in the block's range. -/
theorem in_block5 (t : Fin cfg5.N) (i : S50000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v185).slice (win5_6.rect t)).set ↔ _
  rw [View.set_slice_whole, Rect.mem_set_unit]
  exact Iff.rfl

/-- The 25 row blocks tile the array: row `r` is in the block of point `r / 2000`. -/
theorem tiled5 (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, ht⟩ := rowblock_onto5 ⟨(i 0).val / 2000, by omega⟩
  have q0 : win5_6.index t (0 : Fin 2) = (i 0).val / 2000 := congrFun ht 0
  have q1 : win5_6.index t (1 : Fin 2) = 0 := congrFun ht 1
  refine ⟨t, flush5_6 t, ?_⟩
  rw [in_block5]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 128 ≤ (i 1).val ∧ (i 1).val < win5_6.index t (1 : Fin 2) * 128 + 128; omega

/-- The output array after the call: the layer of the arrays the call found. -/
theorem whole5 (c : Dev nD) : (dat5 V c).arrAt 6 cfg5.N
    = Cert.Sage.layer (V c main_v168) (V c main_v177) (V c main_v123) (V c main_v179) (V c main_v182) (V c main_v184) :=
  (dat5 V c).arrAt_eq_of_cover 6 _ (fun t _ => written5 V c t) tiled5

end Cert.KernelIdeal.SageValue

end
-- ==== Proof.RefLayer.lean ====
/-
  The reference's layer is the layer specification.

  The reference computes, for node features `x`, neighbour sums `agg`, neighbour counts `cnt`, weights `wl`, `wr` and a
  bias `b`,

      relu ( (agg / max(cnt, 1)) · wl  +  b  +  x · wr ),

  the count clamped below at one and spread along the feature axis before the division. The kernel instead receives
  the reciprocal `1 / max(cnt, 1)` as a column and multiplies. Entry by entry:
    * the host's matrix product is the sum over the contracted axis;
    * the spread count at (r, k) is the clamped count of node r, which is at least one, so the quotient by it is the
      product with its reciprocal;
    * (P + b) + Q = (P + Q) + b, by commutativity and associativity of addition on the extended reals.
-/
import proofs.«120746_j29394756174084_1_alg».proof.ReferenceIdeal
import proofs.«120746_j29394756174084_1_alg».proof.Proof.Gen.ReferenceIdeal
import proofs.«120746_j29394756174084_1_alg».proof.Proof.SageLayer
import Idealize.ShloMosaic.Lib.Pipeline.Value
import Idealize.ShloMosaic.Lib.ValueIdx
import Idealize.ShloMosaic.PureOps.Ideal.Laws

noncomputable section

namespace Cert.ReferenceIdeal.SageRef

open Idealize.ShloMosaic Idealize.ShloMosaic.ValueIdx Cert.ReferenceIdeal Cert.ReferenceIdeal.Gen

/-- The whole-array product's dimension record: rows of the left operand against columns of the right. -/
local notation "dR" => dot_S50000x128_S128x128_S50000x128_1_0_0_1_n_n

/-- The constant one, per node. -/
def ones : FVec Ideal S50000 .f32 := broadcastInDim S50000 ![] bcast_S_S50000 (constant (F := Ideal) S_ .f32 0x3F800000#32)

/-- A neighbour count clamped below at one. -/
def clamp (cnt : FVec Ideal S50000 .f32) : FVec Ideal S50000 .f32 := maximumf cnt ones

/-- The reference's operations for one layer, as a function of their operands. -/
def refLayer (x agg : FVec Ideal S50000x128 .f32) (cnt : FVec Ideal S50000 .f32) (wl : FVec Ideal S128x128 .f32)
    (b : FVec Ideal S128 .f32) (wr : FVec Ideal S128x128 .f32) : FVec Ideal S50000x128 .f32 :=
  maximumf
    (addf
      (addf
        (Host.dotGeneral dR none
          (Host.divf agg (broadcastInDim S50000x128 ![0, 1] bcast_S50000x1_S50000x128_0_1
            (broadcastInDim S50000x1 ![0] bcast_S50000_S50000x1_0 (clamp cnt))))
          wl)
        (broadcastInDim S50000x128 ![0, 1] bcast_S1x128_S50000x128_0_1 (broadcastInDim S1x128 ![1] bcast_S128_S1x128_1 b)))
      (Host.dotGeneral dR none x wr))
    (broadcastInDim S50000x128 ![] bcast_S_S50000x128 (constant (F := Ideal) S_ .f32 0x00000000#32))

/-- The reciprocal of the clamped count, kept as a column: what the kernel's calls receive. -/
def recipCol (cnt : FVec Ideal S50000 .f32) (h : S50000.ShapeCasts S50000x1) : FVec Ideal S50000x1 .f32 :=
  shapeCast S50000x1 (Host.divf ones (clamp cnt)) h

/-- The bias kept as a row: what the kernel's calls receive. -/
def biasRow (b : FVec Ideal S128 .f32) (h : S128.ShapeCasts S1x128) : FVec Ideal S1x128 .f32 := shapeCast S1x128 b h

theorem lhs_row (i : S50000x128.Idx) (κ : (dR).contr.Idx) : ((dR).lhsIdx i κ 0).val = (i 0).val := by
  unfold DotDims.lhsIdx
  rw [dif_neg (show ¬(0 : Fin S50000x128.rank) ∈ (dR).lhsBatch by decide), dif_pos (show (0 : Fin S50000x128.rank) ∈ (dR).lhsNonContracting by decide)]
  rfl

theorem rhs_col (i : S50000x128.Idx) (κ : (dR).contr.Idx) : ((dR).rhsIdx i κ 1).val = (i 1).val := by
  unfold DotDims.rhsIdx
  rw [dif_neg (show ¬(1 : Fin S128x128.rank) ∈ (dR).rhsBatch by decide), dif_pos (show (1 : Fin S128x128.rank) ∈ (dR).rhsNonContracting by decide)]
  rfl

/-- The host's matrix product at entry (r, q): the sum over the contracted axis. -/
theorem dot_apply (y0 : FVec Ideal S50000x128 .f32) (y1 : FVec Ideal S128x128 .f32) (r : Fin 50000) (q : Fin 128) :
    Host.dotGeneral dR none y0 y1 (ix2 r q) = ∑ k : Fin 128, y0 (ix2 r k) * y1 (ix2 k q) := by
  simp only [Host.dotGeneral]
  rw [Ideal.dotGeneral_apply, ← Equiv.sum_comp (contrEquiv1 dR 128 rfl rfl).symm]
  refine Finset.sum_congr rfl fun k _ => ?_
  have hk := contrEquiv1_symm_val dR 128 rfl rfl k
  have el : (dR).lhsIdx (ix2 r q) ((contrEquiv1 dR 128 rfl rfl).symm k) = ix2 r k := funext fun a => Fin.ext (by
    match a with
    | ⟨0, _⟩ => exact lhs_row _ _
    | ⟨1, _⟩ => exact ((dR).lhsIdx_val_of_single rfl _ _).trans hk)
  have er : (dR).rhsIdx (ix2 r q) ((contrEquiv1 dR 128 rfl rfl).symm k) = ix2 k q := funext fun a => Fin.ext (by
    match a with
    | ⟨0, _⟩ => exact ((dR).rhsIdx_val_of_single rfl _ _).trans hk
    | ⟨1, _⟩ => exact rhs_col _ _)
  rw [el, er]

/-- A per-node value spread to a column and then along the feature axis reads the node's value. -/
theorem spread_read (v : FVec Ideal S50000 .f32) (r : Fin 50000) (k : Fin 128) :
    broadcastInDim S50000x128 ![0, 1] bcast_S50000x1_S50000x128_0_1 (broadcastInDim S50000x1 ![0] bcast_S50000_S50000x1_0 v) (ix2 r k)
      = v (ix1 r) := by
  rw [broadcastInDim_apply _ bcast_S50000x1_S50000x128_0_1 _ (ix2 r k) (ix2 r 0) (fun a => match a with
    | ⟨0, _⟩ => by show r.val = if (50000 : Nat) = 1 then 0 else r.val; rw [if_neg (by decide)]
    | ⟨1, _⟩ => by show 0 = if (1 : Nat) = 1 then 0 else k.val; rw [if_pos rfl])]
  exact broadcastInDim_apply _ bcast_S50000_S50000x1_0 v (ix2 r 0) (ix1 r) (fun a => match a with
    | ⟨0, _⟩ => by show r.val = if (50000 : Nat) = 1 then 0 else r.val; rw [if_neg (by decide)])

/-- A per-feature value spread to a row and then along the node axis reads the feature's value. -/
theorem bias_read (b : FVec Ideal S128 .f32) (r : Fin 50000) (q : Fin 128) :
    broadcastInDim S50000x128 ![0, 1] bcast_S1x128_S50000x128_0_1 (broadcastInDim S1x128 ![1] bcast_S128_S1x128_1 b) (ix2 r q)
      = b (ix1 q) := by
  rw [broadcastInDim_apply _ bcast_S1x128_S50000x128_0_1 _ (ix2 r q) (ix2 0 q) (fun a => match a with
    | ⟨0, _⟩ => by show 0 = if (1 : Nat) = 1 then 0 else r.val; rw [if_pos rfl]
    | ⟨1, _⟩ => by show q.val = if (128 : Nat) = 1 then 0 else q.val; rw [if_neg (by decide)])]
  exact broadcastInDim_apply _ bcast_S128_S1x128_1 b (ix2 0 q) (ix1 q) (fun a => match a with
    | ⟨0, _⟩ => by show q.val = if (128 : Nat) = 1 then 0 else q.val; rw [if_neg (by decide)])

/-- The clamped count of a node. -/
theorem clamp_read (cnt : FVec Ideal S50000 .f32) (r : Fin 50000) :
    clamp cnt (ix1 r) = max (cnt (ix1 r)) (Ideal.ofBits .f32 0x3F800000#32) := rfl

/-- The reciprocal column at node r. -/
theorem recip_read (cnt : FVec Ideal S50000 .f32) (h : S50000.ShapeCasts S50000x1) (r : Fin 50000) :
    recipCol cnt h (ix2 r 0) = Ideal.div (Ideal.ofBits .f32 0x3F800000#32) (max (cnt (ix1 r)) (Ideal.ofBits .f32 0x3F800000#32)) := by
  unfold recipCol
  rw [shapeCast_apply _ h (ix2 r 0) (ix1 r) (by rw [Shape.rowMajor_val_one, Shape.rowMajor_val_two]; show r.val = r.val * 1 + 0; omega)]
  rfl

/-- The bias row at feature q. -/
theorem biasRow_read (b : FVec Ideal S128 .f32) (h : S128.ShapeCasts S1x128) (q : Fin 128) :
    biasRow b h (ix2 0 q) = b (ix1 q) := by
  unfold biasRow
  rw [shapeCast_apply _ h (ix2 0 q) (ix1 q) (by rw [Shape.rowMajor_val_one, Shape.rowMajor_val_two]; show q.val = 0 * 128 + q.val; omega)]

/-- The reference's layer is the layer specification at the reciprocal column and the bias row. -/
theorem refLayer_eq (x agg : FVec Ideal S50000x128 .f32) (cnt : FVec Ideal S50000 .f32) (wl : FVec Ideal S128x128 .f32)
    (b : FVec Ideal S128 .f32) (wr : FVec Ideal S128x128 .f32) (h1 : S50000.ShapeCasts S50000x1) (h2 : S128.ShapeCasts S1x128) :
    refLayer x agg cnt wl b wr = Cert.Sage.layer agg (recipCol cnt h1) x wl (biasRow b h2) wr := by
  funext i
  obtain ⟨r, q, rfl⟩ : ∃ (r : Fin 50000) (q : Fin 128), i = ix2 r q := ⟨i 0, i 1, eq_ix2 i⟩
  have hL : refLayer x agg cnt wl b wr (ix2 r q)
      = max ((Host.dotGeneral dR none (Host.divf agg (broadcastInDim S50000x128 ![0, 1] bcast_S50000x1_S50000x128_0_1
                (broadcastInDim S50000x1 ![0] bcast_S50000_S50000x1_0 (clamp cnt)))) wl (ix2 r q)
              + broadcastInDim S50000x128 ![0, 1] bcast_S1x128_S50000x128_0_1 (broadcastInDim S1x128 ![1] bcast_S128_S1x128_1 b) (ix2 r q))
             + Host.dotGeneral dR none x wr (ix2 r q))
          (Ideal.ofBits .f32 0x00000000#32) := rfl
  rw [hL, dot_apply, dot_apply, bias_read]
  unfold Cert.Sage.layer
  show _ = max ((∑ k : Fin 128, (agg (ix2 r k) * recipCol cnt h1 (ix2 r 0)) * wl (ix2 k q))
                + (∑ k : Fin 128, x (ix2 r k) * wr (ix2 k q)) + biasRow b h2 (ix2 0 q)) (Ideal.ofBits .f32 0x00000000#32)
  rw [recip_read, biasRow_read]
  refine congrArg₂ max ((add_right_comm _ _ _).trans (congrArg₂ (· + ·) (congrArg₂ (· + ·) (Finset.sum_congr rfl fun k _ => ?_) rfl) rfl)) rfl
  show Ideal.div (agg (ix2 r k)) (broadcastInDim S50000x128 ![0, 1] bcast_S50000x1_S50000x128_0_1
      (broadcastInDim S50000x1 ![0] bcast_S50000_S50000x1_0 (clamp cnt)) (ix2 r k)) * wl (ix2 k q) = _
  rw [spread_read, clamp_read, Cert.Sage.one_lit, Cert.Sage.mul_recip _ _ (le_max_right _ _)]

end Cert.ReferenceIdeal.SageRef

end
-- ==== Proof.Chain.lean ====
/-
  The kernel's buffers along the run, against the reference's stages.

  The contents at the thirteen segment boundaries are a fold from the launch memory. No host operation and no call
  writes an argument that a later segment reads, so each argument is read back to its launch contents at every
  boundary. With that, by induction along the six calls: the arrays a call finds are the reference's stages of the
  same arguments (the same gather, scatter-add, clamp, slices and reshapes, applied to equal operands), a call
  leaves the layer of the arrays it finds, and the reference's layer stage is that layer; so each call's output is the
  reference's layer stage. The last stretch of host operations (the per-graph mean and the final linear map) is the
  reference's own tail applied to equal operands.
-/
import proofs.«120746_j29394756174084_1_alg».proof.Proof.Gen.KernelIdeal.Frame
import proofs.«120746_j29394756174084_1_alg».proof.Proof.RefReadP
import proofs.«120746_j29394756174084_1_alg».proof.Proof.Region0
import proofs.«120746_j29394756174084_1_alg».proof.Proof.Region1
import proofs.«120746_j29394756174084_1_alg».proof.Proof.Region2
import proofs.«120746_j29394756174084_1_alg».proof.Proof.Region3
import proofs.«120746_j29394756174084_1_alg».proof.Proof.Region4
import proofs.«120746_j29394756174084_1_alg».proof.Proof.Region5
import proofs.«120746_j29394756174084_1_alg».proof.Proof.RefLayer
import Idealize.ShloMosaic.Lib.StableHlo.Run

set_option maxRecDepth 16384

noncomputable section

namespace Cert.KernelIdeal.SageValue

open Idealize.ShloMosaic Idealize.ShloMosaic.TcCoe Idealize.SL.Sem
open Cert.KernelIdeal Cert.KernelIdeal.Gen

/-- No operation of a literal stretch of host operations writes a given buffer: the stretch's write sets, one
    inequality of references each. -/
macro "host_writes" ops:ident : tactic =>
  `(tactic| (simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton] <;> (repeat' apply And.intro) <;> exact StableHlo.devRef_ne_of_ne (by decide)))

variable (m : (ℓ : Loc nD τ sig) → Buf (Elt Ideal) ℓ) (ρ : Dev nD → PrngReg) (c : Dev nD)

/-! ## The arguments at every call's exit -/

theorem keep2_1 : W2 m ρ c (Proc.devRef .tc main_arg1) = (m ((c : Thread nD τ).loc main_arg1)) := by
  rw [W2_of_ne m ρ c main_arg1 (by decide)]
  exact StableHlo.after_of_forall_not_mem (b := Proc.devRef .tc main_arg1) _ _ (List.forall_iff_forall_mem.mp (by host_writes hostOps0))
theorem keep2_2 : W2 m ρ c (Proc.devRef .tc main_arg2) = (m ((c : Thread nD τ).loc main_arg2)) := by
  rw [W2_of_ne m ρ c main_arg2 (by decide)]
  exact StableHlo.after_of_forall_not_mem (b := Proc.devRef .tc main_arg2) _ _ (List.forall_iff_forall_mem.mp (by host_writes hostOps0))
theorem keep2_3 : W2 m ρ c (Proc.devRef .tc main_arg3) = (m ((c : Thread nD τ).loc main_arg3)) := by
  rw [W2_of_ne m ρ c main_arg3 (by decide)]
  exact StableHlo.after_of_forall_not_mem (b := Proc.devRef .tc main_arg3) _ _ (List.forall_iff_forall_mem.mp (by host_writes hostOps0))
theorem keep2_4 : W2 m ρ c (Proc.devRef .tc main_arg4) = (m ((c : Thread nD τ).loc main_arg4)) := by
  rw [W2_of_ne m ρ c main_arg4 (by decide)]
  exact StableHlo.after_of_forall_not_mem (b := Proc.devRef .tc main_arg4) _ _ (List.forall_iff_forall_mem.mp (by host_writes hostOps0))
theorem keep2_5 : W2 m ρ c (Proc.devRef .tc main_arg5) = (m ((c : Thread nD τ).loc main_arg5)) := by
  rw [W2_of_ne m ρ c main_arg5 (by decide)]
  exact StableHlo.after_of_forall_not_mem (b := Proc.devRef .tc main_arg5) _ _ (List.forall_iff_forall_mem.mp (by host_writes hostOps0))
theorem keep2_6 : W2 m ρ c (Proc.devRef .tc main_arg6) = (m ((c : Thread nD τ).loc main_arg6)) := by
  rw [W2_of_ne m ρ c main_arg6 (by decide)]
  exact StableHlo.after_of_forall_not_mem (b := Proc.devRef .tc main_arg6) _ _ (List.forall_iff_forall_mem.mp (by host_writes hostOps0))
theorem keep2_7 : W2 m ρ c (Proc.devRef .tc main_arg7) = (m ((c : Thread nD τ).loc main_arg7)) := by
  rw [W2_of_ne m ρ c main_arg7 (by decide)]
  exact StableHlo.after_of_forall_not_mem (b := Proc.devRef .tc main_arg7) _ _ (List.forall_iff_forall_mem.mp (by host_writes hostOps0))
theorem keep2_8 : W2 m ρ c (Proc.devRef .tc main_arg8) = (m ((c : Thread nD τ).loc main_arg8)) := by
  rw [W2_of_ne m ρ c main_arg8 (by decide)]
  exact StableHlo.after_of_forall_not_mem (b := Proc.devRef .tc main_arg8) _ _ (List.forall_iff_forall_mem.mp (by host_writes hostOps0))
theorem keep2_9 : W2 m ρ c (Proc.devRef .tc main_arg9) = (m ((c : Thread nD τ).loc main_arg9)) := by
  rw [W2_of_ne m ρ c main_arg9 (by decide)]
  exact StableHlo.after_of_forall_not_mem (b := Proc.devRef .tc main_arg9) _ _ (List.forall_iff_forall_mem.mp (by host_writes hostOps0))
theorem keep2_10 : W2 m ρ c (Proc.devRef .tc main_arg10) = (m ((c : Thread nD τ).loc main_arg10)) := by
  rw [W2_of_ne m ρ c main_arg10 (by decide)]
  exact StableHlo.after_of_forall_not_mem (b := Proc.devRef .tc main_arg10) _ _ (List.forall_iff_forall_mem.mp (by host_writes hostOps0))

theorem keep4_2 : W4 m ρ c (Proc.devRef .tc main_arg2) = (m ((c : Thread nD τ).loc main_arg2)) := by
  rw [W4_of_ne m ρ c main_arg2 (by decide)]
  exact (StableHlo.after_of_forall_not_mem (b := Proc.devRef .tc main_arg2) _ _ (List.forall_iff_forall_mem.mp (by host_writes hostOps1))).trans (keep2_2 m ρ c)
theorem keep4_3 : W4 m ρ c (Proc.devRef .tc main_arg3) = (m ((c : Thread nD τ).loc main_arg3)) := by
  rw [W4_of_ne m ρ c main_arg3 (by decide)]
  exact (StableHlo.after_of_forall_not_mem (b := Proc.devRef .tc main_arg3) _ _ (List.forall_iff_forall_mem.mp (by host_writes hostOps1))).trans (keep2_3 m ρ c)
theorem keep4_4 : W4 m ρ c (Proc.devRef .tc main_arg4) = (m ((c : Thread nD τ).loc main_arg4)) := by
  rw [W4_of_ne m ρ c main_arg4 (by decide)]
  exact (StableHlo.after_of_forall_not_mem (b := Proc.devRef .tc main_arg4) _ _ (List.forall_iff_forall_mem.mp (by host_writes hostOps1))).trans (keep2_4 m ρ c)
theorem keep4_5 : W4 m ρ c (Proc.devRef .tc main_arg5) = (m ((c : Thread nD τ).loc main_arg5)) := by
  rw [W4_of_ne m ρ c main_arg5 (by decide)]
  exact (StableHlo.after_of_forall_not_mem (b := Proc.devRef .tc main_arg5) _ _ (List.forall_iff_forall_mem.mp (by host_writes hostOps1))).trans (keep2_5 m ρ c)
theorem keep4_6 : W4 m ρ c (Proc.devRef .tc main_arg6) = (m ((c : Thread nD τ).loc main_arg6)) := by
  rw [W4_of_ne m ρ c main_arg6 (by decide)]
  exact (StableHlo.after_of_forall_not_mem (b := Proc.devRef .tc main_arg6) _ _ (List.forall_iff_forall_mem.mp (by host_writes hostOps1))).trans (keep2_6 m ρ c)
theorem keep4_7 : W4 m ρ c (Proc.devRef .tc main_arg7) = (m ((c : Thread nD τ).loc main_arg7)) := by
  rw [W4_of_ne m ρ c main_arg7 (by decide)]
  exact (StableHlo.after_of_forall_not_mem (b := Proc.devRef .tc main_arg7) _ _ (List.forall_iff_forall_mem.mp (by host_writes hostOps1))).trans (keep2_7 m ρ c)
theorem keep4_8 : W4 m ρ c (Proc.devRef .tc main_arg8) = (m ((c : Thread nD τ).loc main_arg8)) := by
  rw [W4_of_ne m ρ c main_arg8 (by decide)]
  exact (StableHlo.after_of_forall_not_mem (b := Proc.devRef .tc main_arg8) _ _ (List.forall_iff_forall_mem.mp (by host_writes hostOps1))).trans (keep2_8 m ρ c)
theorem keep4_9 : W4 m ρ c (Proc.devRef .tc main_arg9) = (m ((c : Thread nD τ).loc main_arg9)) := by
  rw [W4_of_ne m ρ c main_arg9 (by decide)]
  exact (StableHlo.after_of_forall_not_mem (b := Proc.devRef .tc main_arg9) _ _ (List.forall_iff_forall_mem.mp (by host_writes hostOps1))).trans (keep2_9 m ρ c)
theorem keep4_10 : W4 m ρ c (Proc.devRef .tc main_arg10) = (m ((c : Thread nD τ).loc main_arg10)) := by
  rw [W4_of_ne m ρ c main_arg10 (by decide)]
  exact (StableHlo.after_of_forall_not_mem (b := Proc.devRef .tc main_arg10) _ _ (List.forall_iff_forall_mem.mp (by host_writes hostOps1))).trans (keep2_10 m ρ c)

theorem keep6_2 : W6 m ρ c (Proc.devRef .tc main_arg2) = (m ((c : Thread nD τ).loc main_arg2)) := by
  rw [W6_of_ne m ρ c main_arg2 (by decide)]
  exact (StableHlo.after_of_forall_not_mem (b := Proc.devRef .tc main_arg2) _ _ (List.forall_iff_forall_mem.mp (by host_writes hostOps2))).trans (keep4_2 m ρ c)
theorem keep6_3 : W6 m ρ c (Proc.devRef .tc main_arg3) = (m ((c : Thread nD τ).loc main_arg3)) := by
  rw [W6_of_ne m ρ c main_arg3 (by decide)]
  exact (StableHlo.after_of_forall_not_mem (b := Proc.devRef .tc main_arg3) _ _ (List.forall_iff_forall_mem.mp (by host_writes hostOps2))).trans (keep4_3 m ρ c)
theorem keep6_4 : W6 m ρ c (Proc.devRef .tc main_arg4) = (m ((c : Thread nD τ).loc main_arg4)) := by
  rw [W6_of_ne m ρ c main_arg4 (by decide)]
  exact (StableHlo.after_of_forall_not_mem (b := Proc.devRef .tc main_arg4) _ _ (List.forall_iff_forall_mem.mp (by host_writes hostOps2))).trans (keep4_4 m ρ c)
theorem keep6_5 : W6 m ρ c (Proc.devRef .tc main_arg5) = (m ((c : Thread nD τ).loc main_arg5)) := by
  rw [W6_of_ne m ρ c main_arg5 (by decide)]
  exact (StableHlo.after_of_forall_not_mem (b := Proc.devRef .tc main_arg5) _ _ (List.forall_iff_forall_mem.mp (by host_writes hostOps2))).trans (keep4_5 m ρ c)
theorem keep6_6 : W6 m ρ c (Proc.devRef .tc main_arg6) = (m ((c : Thread nD τ).loc main_arg6)) := by
  rw [W6_of_ne m ρ c main_arg6 (by decide)]
  exact (StableHlo.after_of_forall_not_mem (b := Proc.devRef .tc main_arg6) _ _ (List.forall_iff_forall_mem.mp (by host_writes hostOps2))).trans (keep4_6 m ρ c)
theorem keep6_7 : W6 m ρ c (Proc.devRef .tc main_arg7) = (m ((c : Thread nD τ).loc main_arg7)) := by
  rw [W6_of_ne m ρ c main_arg7 (by decide)]
  exact (StableHlo.after_of_forall_not_mem (b := Proc.devRef .tc main_arg7) _ _ (List.forall_iff_forall_mem.mp (by host_writes hostOps2))).trans (keep4_7 m ρ c)
theorem keep6_8 : W6 m ρ c (Proc.devRef .tc main_arg8) = (m ((c : Thread nD τ).loc main_arg8)) := by
  rw [W6_of_ne m ρ c main_arg8 (by decide)]
  exact (StableHlo.after_of_forall_not_mem (b := Proc.devRef .tc main_arg8) _ _ (List.forall_iff_forall_mem.mp (by host_writes hostOps2))).trans (keep4_8 m ρ c)
theorem keep6_9 : W6 m ρ c (Proc.devRef .tc main_arg9) = (m ((c : Thread nD τ).loc main_arg9)) := by
  rw [W6_of_ne m ρ c main_arg9 (by decide)]
  exact (StableHlo.after_of_forall_not_mem (b := Proc.devRef .tc main_arg9) _ _ (List.forall_iff_forall_mem.mp (by host_writes hostOps2))).trans (keep4_9 m ρ c)
theorem keep6_10 : W6 m ρ c (Proc.devRef .tc main_arg10) = (m ((c : Thread nD τ).loc main_arg10)) := by
  rw [W6_of_ne m ρ c main_arg10 (by decide)]
  exact (StableHlo.after_of_forall_not_mem (b := Proc.devRef .tc main_arg10) _ _ (List.forall_iff_forall_mem.mp (by host_writes hostOps2))).trans (keep4_10 m ρ c)

theorem keep8_2 : W8 m ρ c (Proc.devRef .tc main_arg2) = (m ((c : Thread nD τ).loc main_arg2)) := by
  rw [W8_of_ne m ρ c main_arg2 (by decide)]
  exact (StableHlo.after_of_forall_not_mem (b := Proc.devRef .tc main_arg2) _ _ (List.forall_iff_forall_mem.mp (by host_writes hostOps3))).trans (keep6_2 m ρ c)
theorem keep8_3 : W8 m ρ c (Proc.devRef .tc main_arg3) = (m ((c : Thread nD τ).loc main_arg3)) := by
  rw [W8_of_ne m ρ c main_arg3 (by decide)]
  exact (StableHlo.after_of_forall_not_mem (b := Proc.devRef .tc main_arg3) _ _ (List.forall_iff_forall_mem.mp (by host_writes hostOps3))).trans (keep6_3 m ρ c)
theorem keep8_4 : W8 m ρ c (Proc.devRef .tc main_arg4) = (m ((c : Thread nD τ).loc main_arg4)) := by
  rw [W8_of_ne m ρ c main_arg4 (by decide)]
  exact (StableHlo.after_of_forall_not_mem (b := Proc.devRef .tc main_arg4) _ _ (List.forall_iff_forall_mem.mp (by host_writes hostOps3))).trans (keep6_4 m ρ c)
theorem keep8_5 : W8 m ρ c (Proc.devRef .tc main_arg5) = (m ((c : Thread nD τ).loc main_arg5)) := by
  rw [W8_of_ne m ρ c main_arg5 (by decide)]
  exact (StableHlo.after_of_forall_not_mem (b := Proc.devRef .tc main_arg5) _ _ (List.forall_iff_forall_mem.mp (by host_writes hostOps3))).trans (keep6_5 m ρ c)
theorem keep8_6 : W8 m ρ c (Proc.devRef .tc main_arg6) = (m ((c : Thread nD τ).loc main_arg6)) := by
  rw [W8_of_ne m ρ c main_arg6 (by decide)]
  exact (StableHlo.after_of_forall_not_mem (b := Proc.devRef .tc main_arg6) _ _ (List.forall_iff_forall_mem.mp (by host_writes hostOps3))).trans (keep6_6 m ρ c)
theorem keep8_7 : W8 m ρ c (Proc.devRef .tc main_arg7) = (m ((c : Thread nD τ).loc main_arg7)) := by
  rw [W8_of_ne m ρ c main_arg7 (by decide)]
  exact (StableHlo.after_of_forall_not_mem (b := Proc.devRef .tc main_arg7) _ _ (List.forall_iff_forall_mem.mp (by host_writes hostOps3))).trans (keep6_7 m ρ c)
theorem keep8_8 : W8 m ρ c (Proc.devRef .tc main_arg8) = (m ((c : Thread nD τ).loc main_arg8)) := by
  rw [W8_of_ne m ρ c main_arg8 (by decide)]
  exact (StableHlo.after_of_forall_not_mem (b := Proc.devRef .tc main_arg8) _ _ (List.forall_iff_forall_mem.mp (by host_writes hostOps3))).trans (keep6_8 m ρ c)
theorem keep8_9 : W8 m ρ c (Proc.devRef .tc main_arg9) = (m ((c : Thread nD τ).loc main_arg9)) := by
  rw [W8_of_ne m ρ c main_arg9 (by decide)]
  exact (StableHlo.after_of_forall_not_mem (b := Proc.devRef .tc main_arg9) _ _ (List.forall_iff_forall_mem.mp (by host_writes hostOps3))).trans (keep6_9 m ρ c)
theorem keep8_10 : W8 m ρ c (Proc.devRef .tc main_arg10) = (m ((c : Thread nD τ).loc main_arg10)) := by
  rw [W8_of_ne m ρ c main_arg10 (by decide)]
  exact (StableHlo.after_of_forall_not_mem (b := Proc.devRef .tc main_arg10) _ _ (List.forall_iff_forall_mem.mp (by host_writes hostOps3))).trans (keep6_10 m ρ c)

theorem keep10_2 : W10 m ρ c (Proc.devRef .tc main_arg2) = (m ((c : Thread nD τ).loc main_arg2)) := by
  rw [W10_of_ne m ρ c main_arg2 (by decide)]
  exact (StableHlo.after_of_forall_not_mem (b := Proc.devRef .tc main_arg2) _ _ (List.forall_iff_forall_mem.mp (by host_writes hostOps4))).trans (keep8_2 m ρ c)
theorem keep10_3 : W10 m ρ c (Proc.devRef .tc main_arg3) = (m ((c : Thread nD τ).loc main_arg3)) := by
  rw [W10_of_ne m ρ c main_arg3 (by decide)]
  exact (StableHlo.after_of_forall_not_mem (b := Proc.devRef .tc main_arg3) _ _ (List.forall_iff_forall_mem.mp (by host_writes hostOps4))).trans (keep8_3 m ρ c)
theorem keep10_4 : W10 m ρ c (Proc.devRef .tc main_arg4) = (m ((c : Thread nD τ).loc main_arg4)) := by
  rw [W10_of_ne m ρ c main_arg4 (by decide)]
  exact (StableHlo.after_of_forall_not_mem (b := Proc.devRef .tc main_arg4) _ _ (List.forall_iff_forall_mem.mp (by host_writes hostOps4))).trans (keep8_4 m ρ c)
theorem keep10_5 : W10 m ρ c (Proc.devRef .tc main_arg5) = (m ((c : Thread nD τ).loc main_arg5)) := by
  rw [W10_of_ne m ρ c main_arg5 (by decide)]
  exact (StableHlo.after_of_forall_not_mem (b := Proc.devRef .tc main_arg5) _ _ (List.forall_iff_forall_mem.mp (by host_writes hostOps4))).trans (keep8_5 m ρ c)
theorem keep10_6 : W10 m ρ c (Proc.devRef .tc main_arg6) = (m ((c : Thread nD τ).loc main_arg6)) := by
  rw [W10_of_ne m ρ c main_arg6 (by decide)]
  exact (StableHlo.after_of_forall_not_mem (b := Proc.devRef .tc main_arg6) _ _ (List.forall_iff_forall_mem.mp (by host_writes hostOps4))).trans (keep8_6 m ρ c)
theorem keep10_7 : W10 m ρ c (Proc.devRef .tc main_arg7) = (m ((c : Thread nD τ).loc main_arg7)) := by
  rw [W10_of_ne m ρ c main_arg7 (by decide)]
  exact (StableHlo.after_of_forall_not_mem (b := Proc.devRef .tc main_arg7) _ _ (List.forall_iff_forall_mem.mp (by host_writes hostOps4))).trans (keep8_7 m ρ c)
theorem keep10_8 : W10 m ρ c (Proc.devRef .tc main_arg8) = (m ((c : Thread nD τ).loc main_arg8)) := by
  rw [W10_of_ne m ρ c main_arg8 (by decide)]
  exact (StableHlo.after_of_forall_not_mem (b := Proc.devRef .tc main_arg8) _ _ (List.forall_iff_forall_mem.mp (by host_writes hostOps4))).trans (keep8_8 m ρ c)
theorem keep10_9 : W10 m ρ c (Proc.devRef .tc main_arg9) = (m ((c : Thread nD τ).loc main_arg9)) := by
  rw [W10_of_ne m ρ c main_arg9 (by decide)]
  exact (StableHlo.after_of_forall_not_mem (b := Proc.devRef .tc main_arg9) _ _ (List.forall_iff_forall_mem.mp (by host_writes hostOps4))).trans (keep8_9 m ρ c)
theorem keep10_10 : W10 m ρ c (Proc.devRef .tc main_arg10) = (m ((c : Thread nD τ).loc main_arg10)) := by
  rw [W10_of_ne m ρ c main_arg10 (by decide)]
  exact (StableHlo.after_of_forall_not_mem (b := Proc.devRef .tc main_arg10) _ _ (List.forall_iff_forall_mem.mp (by host_writes hostOps4))).trans (keep8_10 m ρ c)

theorem keep12_2 : W12 m ρ c (Proc.devRef .tc main_arg2) = (m ((c : Thread nD τ).loc main_arg2)) := by
  rw [W12_of_ne m ρ c main_arg2 (by decide)]
  exact (StableHlo.after_of_forall_not_mem (b := Proc.devRef .tc main_arg2) _ _ (List.forall_iff_forall_mem.mp (by host_writes hostOps5))).trans (keep10_2 m ρ c)
theorem keep12_3 : W12 m ρ c (Proc.devRef .tc main_arg3) = (m ((c : Thread nD τ).loc main_arg3)) := by
  rw [W12_of_ne m ρ c main_arg3 (by decide)]
  exact (StableHlo.after_of_forall_not_mem (b := Proc.devRef .tc main_arg3) _ _ (List.forall_iff_forall_mem.mp (by host_writes hostOps5))).trans (keep10_3 m ρ c)
theorem keep12_4 : W12 m ρ c (Proc.devRef .tc main_arg4) = (m ((c : Thread nD τ).loc main_arg4)) := by
  rw [W12_of_ne m ρ c main_arg4 (by decide)]
  exact (StableHlo.after_of_forall_not_mem (b := Proc.devRef .tc main_arg4) _ _ (List.forall_iff_forall_mem.mp (by host_writes hostOps5))).trans (keep10_4 m ρ c)
theorem keep12_5 : W12 m ρ c (Proc.devRef .tc main_arg5) = (m ((c : Thread nD τ).loc main_arg5)) := by
  rw [W12_of_ne m ρ c main_arg5 (by decide)]
  exact (StableHlo.after_of_forall_not_mem (b := Proc.devRef .tc main_arg5) _ _ (List.forall_iff_forall_mem.mp (by host_writes hostOps5))).trans (keep10_5 m ρ c)
theorem keep12_6 : W12 m ρ c (Proc.devRef .tc main_arg6) = (m ((c : Thread nD τ).loc main_arg6)) := by
  rw [W12_of_ne m ρ c main_arg6 (by decide)]
  exact (StableHlo.after_of_forall_not_mem (b := Proc.devRef .tc main_arg6) _ _ (List.forall_iff_forall_mem.mp (by host_writes hostOps5))).trans (keep10_6 m ρ c)
theorem keep12_7 : W12 m ρ c (Proc.devRef .tc main_arg7) = (m ((c : Thread nD τ).loc main_arg7)) := by
  rw [W12_of_ne m ρ c main_arg7 (by decide)]
  exact (StableHlo.after_of_forall_not_mem (b := Proc.devRef .tc main_arg7) _ _ (List.forall_iff_forall_mem.mp (by host_writes hostOps5))).trans (keep10_7 m ρ c)
theorem keep12_8 : W12 m ρ c (Proc.devRef .tc main_arg8) = (m ((c : Thread nD τ).loc main_arg8)) := by
  rw [W12_of_ne m ρ c main_arg8 (by decide)]
  exact (StableHlo.after_of_forall_not_mem (b := Proc.devRef .tc main_arg8) _ _ (List.forall_iff_forall_mem.mp (by host_writes hostOps5))).trans (keep10_8 m ρ c)
theorem keep12_9 : W12 m ρ c (Proc.devRef .tc main_arg9) = (m ((c : Thread nD τ).loc main_arg9)) := by
  rw [W12_of_ne m ρ c main_arg9 (by decide)]
  exact (StableHlo.after_of_forall_not_mem (b := Proc.devRef .tc main_arg9) _ _ (List.forall_iff_forall_mem.mp (by host_writes hostOps5))).trans (keep10_9 m ρ c)
theorem keep12_10 : W12 m ρ c (Proc.devRef .tc main_arg10) = (m ((c : Thread nD τ).loc main_arg10)) := by
  rw [W12_of_ne m ρ c main_arg10 (by decide)]
  exact (StableHlo.after_of_forall_not_mem (b := Proc.devRef .tc main_arg10) _ _ (List.forall_iff_forall_mem.mp (by host_writes hostOps5))).trans (keep10_10 m ρ c)

/-! ## The reference's layer stages, unfolded once -/

theorem stage0 (x0 : (⟨Cert.ReferenceIdeal.S50000x128, .f32⟩ : BufTy).Contents (Elt Ideal)) (x2 : (⟨Cert.ReferenceIdeal.S3x2x128x128, .f32⟩ : BufTy).Contents (Elt Ideal)) (x3 : (⟨Cert.ReferenceIdeal.S3x2x128, .f32⟩ : BufTy).Contents (Elt Ideal)) (x4 : (⟨Cert.ReferenceIdeal.S3x2x128x128, .f32⟩ : BufTy).Contents (Elt Ideal)) (x7 : (⟨Cert.ReferenceIdeal.S2x800000, .i32⟩ : BufTy).Contents (Elt Ideal)) :
    Cert.ReferenceIdeal.ReadP.val_main_v35 (F := Ideal) x0 x2 x3 x4 x7
      = Cert.ReferenceIdeal.SageRef.refLayer x0 (Cert.ReferenceIdeal.ReadP.val_main_v19 (F := Ideal) x0 x7) (Cert.ReferenceIdeal.ReadP.val_main_v23 (F := Ideal) x7)
          (Cert.ReferenceIdeal.ReadP.val_main_v5 (F := Ideal) x2) (Cert.ReferenceIdeal.ReadP.val_main_v7 (F := Ideal) x3) (Cert.ReferenceIdeal.ReadP.val_main_v9 (F := Ideal) x4) := rfl
theorem stage1 (x1 : (⟨Cert.ReferenceIdeal.S50000x128, .f32⟩ : BufTy).Contents (Elt Ideal)) (x2 : (⟨Cert.ReferenceIdeal.S3x2x128x128, .f32⟩ : BufTy).Contents (Elt Ideal)) (x3 : (⟨Cert.ReferenceIdeal.S3x2x128, .f32⟩ : BufTy).Contents (Elt Ideal)) (x4 : (⟨Cert.ReferenceIdeal.S3x2x128x128, .f32⟩ : BufTy).Contents (Elt Ideal)) (x8 : (⟨Cert.ReferenceIdeal.S2x800000, .i32⟩ : BufTy).Contents (Elt Ideal)) :
    Cert.ReferenceIdeal.ReadP.val_main_v71 (F := Ideal) x1 x2 x3 x4 x8
      = Cert.ReferenceIdeal.SageRef.refLayer x1 (Cert.ReferenceIdeal.ReadP.val_main_v55 (F := Ideal) x1 x8) (Cert.ReferenceIdeal.ReadP.val_main_v59 (F := Ideal) x8)
          (Cert.ReferenceIdeal.ReadP.val_main_v41 (F := Ideal) x2) (Cert.ReferenceIdeal.ReadP.val_main_v43 (F := Ideal) x3) (Cert.ReferenceIdeal.ReadP.val_main_v45 (F := Ideal) x4) := rfl
theorem stage2 (x0 : (⟨Cert.ReferenceIdeal.S50000x128, .f32⟩ : BufTy).Contents (Elt Ideal)) (x2 : (⟨Cert.ReferenceIdeal.S3x2x128x128, .f32⟩ : BufTy).Contents (Elt Ideal)) (x3 : (⟨Cert.ReferenceIdeal.S3x2x128, .f32⟩ : BufTy).Contents (Elt Ideal)) (x4 : (⟨Cert.ReferenceIdeal.S3x2x128x128, .f32⟩ : BufTy).Contents (Elt Ideal)) (x7 : (⟨Cert.ReferenceIdeal.S2x800000, .i32⟩ : BufTy).Contents (Elt Ideal)) :
    Cert.ReferenceIdeal.ReadP.val_main_v107 (F := Ideal) x0 x2 x3 x4 x7
      = Cert.ReferenceIdeal.SageRef.refLayer (Cert.ReferenceIdeal.ReadP.val_main_v35 x0 x2 x3 x4 x7) (Cert.ReferenceIdeal.ReadP.val_main_v91 (F := Ideal) x0 x2 x3 x4 x7) (Cert.ReferenceIdeal.ReadP.val_main_v95 (F := Ideal) x7)
          (Cert.ReferenceIdeal.ReadP.val_main_v77 (F := Ideal) x2) (Cert.ReferenceIdeal.ReadP.val_main_v79 (F := Ideal) x3) (Cert.ReferenceIdeal.ReadP.val_main_v81 (F := Ideal) x4) := rfl
theorem stage3 (x1 : (⟨Cert.ReferenceIdeal.S50000x128, .f32⟩ : BufTy).Contents (Elt Ideal)) (x2 : (⟨Cert.ReferenceIdeal.S3x2x128x128, .f32⟩ : BufTy).Contents (Elt Ideal)) (x3 : (⟨Cert.ReferenceIdeal.S3x2x128, .f32⟩ : BufTy).Contents (Elt Ideal)) (x4 : (⟨Cert.ReferenceIdeal.S3x2x128x128, .f32⟩ : BufTy).Contents (Elt Ideal)) (x8 : (⟨Cert.ReferenceIdeal.S2x800000, .i32⟩ : BufTy).Contents (Elt Ideal)) :
    Cert.ReferenceIdeal.ReadP.val_main_v143 (F := Ideal) x1 x2 x3 x4 x8
      = Cert.ReferenceIdeal.SageRef.refLayer (Cert.ReferenceIdeal.ReadP.val_main_v71 x1 x2 x3 x4 x8) (Cert.ReferenceIdeal.ReadP.val_main_v127 (F := Ideal) x1 x2 x3 x4 x8) (Cert.ReferenceIdeal.ReadP.val_main_v131 (F := Ideal) x8)
          (Cert.ReferenceIdeal.ReadP.val_main_v113 (F := Ideal) x2) (Cert.ReferenceIdeal.ReadP.val_main_v115 (F := Ideal) x3) (Cert.ReferenceIdeal.ReadP.val_main_v117 (F := Ideal) x4) := rfl
theorem stage4 (x0 : (⟨Cert.ReferenceIdeal.S50000x128, .f32⟩ : BufTy).Contents (Elt Ideal)) (x2 : (⟨Cert.ReferenceIdeal.S3x2x128x128, .f32⟩ : BufTy).Contents (Elt Ideal)) (x3 : (⟨Cert.ReferenceIdeal.S3x2x128, .f32⟩ : BufTy).Contents (Elt Ideal)) (x4 : (⟨Cert.ReferenceIdeal.S3x2x128x128, .f32⟩ : BufTy).Contents (Elt Ideal)) (x7 : (⟨Cert.ReferenceIdeal.S2x800000, .i32⟩ : BufTy).Contents (Elt Ideal)) :
    Cert.ReferenceIdeal.ReadP.val_main_v179 (F := Ideal) x0 x2 x3 x4 x7
      = Cert.ReferenceIdeal.SageRef.refLayer (Cert.ReferenceIdeal.ReadP.val_main_v107 x0 x2 x3 x4 x7) (Cert.ReferenceIdeal.ReadP.val_main_v163 (F := Ideal) x0 x2 x3 x4 x7) (Cert.ReferenceIdeal.ReadP.val_main_v167 (F := Ideal) x7)
          (Cert.ReferenceIdeal.ReadP.val_main_v149 (F := Ideal) x2) (Cert.ReferenceIdeal.ReadP.val_main_v151 (F := Ideal) x3) (Cert.ReferenceIdeal.ReadP.val_main_v153 (F := Ideal) x4) := rfl
theorem stage5 (x1 : (⟨Cert.ReferenceIdeal.S50000x128, .f32⟩ : BufTy).Contents (Elt Ideal)) (x2 : (⟨Cert.ReferenceIdeal.S3x2x128x128, .f32⟩ : BufTy).Contents (Elt Ideal)) (x3 : (⟨Cert.ReferenceIdeal.S3x2x128, .f32⟩ : BufTy).Contents (Elt Ideal)) (x4 : (⟨Cert.ReferenceIdeal.S3x2x128x128, .f32⟩ : BufTy).Contents (Elt Ideal)) (x8 : (⟨Cert.ReferenceIdeal.S2x800000, .i32⟩ : BufTy).Contents (Elt Ideal)) :
    Cert.ReferenceIdeal.ReadP.val_main_v215 (F := Ideal) x1 x2 x3 x4 x8
      = Cert.ReferenceIdeal.SageRef.refLayer (Cert.ReferenceIdeal.ReadP.val_main_v143 x1 x2 x3 x4 x8) (Cert.ReferenceIdeal.ReadP.val_main_v199 (F := Ideal) x1 x2 x3 x4 x8) (Cert.ReferenceIdeal.ReadP.val_main_v203 (F := Ideal) x8)
          (Cert.ReferenceIdeal.ReadP.val_main_v185 (F := Ideal) x2) (Cert.ReferenceIdeal.ReadP.val_main_v187 (F := Ideal) x3) (Cert.ReferenceIdeal.ReadP.val_main_v189 (F := Ideal) x4) := rfl

/-! ## Each call's output is the reference's layer stage -/

set_option maxHeartbeats 4000000 in
theorem in0_agg : V1 m ρ c main_v13 = Cert.ReferenceIdeal.ReadP.val_main_v19 (F := Ideal) (m ((c : Thread nD τ).loc main_arg0)) (m ((c : Thread nD τ).loc main_arg7)) := by
  show StableHlo.after hostOps0 (W0 m ρ c) (Proc.devRef .tc main_v13) = _
  after_results
  rfl
set_option maxHeartbeats 4000000 in
theorem in0_inv : V1 m ρ c main_v22 = Cert.ReferenceIdeal.SageRef.recipCol (Cert.ReferenceIdeal.ReadP.val_main_v23 (F := Ideal) (m ((c : Thread nD τ).loc main_arg7))) shapeCasts_S50000_S50000x1 := by
  show StableHlo.after hostOps0 (W0 m ρ c) (Proc.devRef .tc main_v22) = _
  after_results
  rfl
theorem in0_x : V1 m ρ c main_arg0 = (m ((c : Thread nD τ).loc main_arg0)) :=
  (StableHlo.after_of_forall_not_mem (b := Proc.devRef .tc main_arg0) _ _ (List.forall_iff_forall_mem.mp (by host_writes hostOps0))).trans rfl
set_option maxHeartbeats 4000000 in
theorem in0_wl : V1 m ρ c main_v24 = Cert.ReferenceIdeal.ReadP.val_main_v5 (F := Ideal) (m ((c : Thread nD τ).loc main_arg2)) := by
  show StableHlo.after hostOps0 (W0 m ρ c) (Proc.devRef .tc main_v24) = _
  after_results
  rfl
set_option maxHeartbeats 4000000 in
theorem in0_bl : V1 m ρ c main_v27 = Cert.ReferenceIdeal.SageRef.biasRow (Cert.ReferenceIdeal.ReadP.val_main_v7 (F := Ideal) (m ((c : Thread nD τ).loc main_arg3))) shapeCasts_S128_S1x128 := by
  show StableHlo.after hostOps0 (W0 m ρ c) (Proc.devRef .tc main_v27) = _
  after_results
  rfl
set_option maxHeartbeats 4000000 in
theorem in0_wr : V1 m ρ c main_v29 = Cert.ReferenceIdeal.ReadP.val_main_v9 (F := Ideal) (m ((c : Thread nD τ).loc main_arg4)) := by
  show StableHlo.after hostOps0 (W0 m ρ c) (Proc.devRef .tc main_v29) = _
  after_results
  rfl
set_option maxHeartbeats 4000000 in
theorem out0 : W2 m ρ c (Proc.devRef .tc main_v30) = Cert.ReferenceIdeal.ReadP.val_main_v35 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  refine (W2_arr m ρ c 6).trans ((whole0 (V1 m ρ) c).trans ?_)
  rw [in0_agg m ρ c, in0_inv m ρ c, in0_x m ρ c, in0_wl m ρ c, in0_bl m ρ c, in0_wr m ρ c]
  exact ((stage0 _ _ _ _ _).trans (Cert.ReferenceIdeal.SageRef.refLayer_eq _ _ _ _ _ _ _ _)).symm

set_option maxHeartbeats 4000000 in
theorem in1_agg : V3 m ρ c main_v44 = Cert.ReferenceIdeal.ReadP.val_main_v55 (F := Ideal) (m ((c : Thread nD τ).loc main_arg1)) (m ((c : Thread nD τ).loc main_arg8)) := by
  show StableHlo.after hostOps1 (W2 m ρ c) (Proc.devRef .tc main_v44) = _
  after_results
  rw [keep2_8 m ρ c, keep2_1 m ρ c]
  rfl
set_option maxHeartbeats 4000000 in
theorem in1_inv : V3 m ρ c main_v53 = Cert.ReferenceIdeal.SageRef.recipCol (Cert.ReferenceIdeal.ReadP.val_main_v59 (F := Ideal) (m ((c : Thread nD τ).loc main_arg8))) shapeCasts_S50000_S50000x1 := by
  show StableHlo.after hostOps1 (W2 m ρ c) (Proc.devRef .tc main_v53) = _
  after_results
  rw [keep2_8 m ρ c]
  rfl
theorem in1_x : V3 m ρ c main_arg1 = (m ((c : Thread nD τ).loc main_arg1)) :=
  (StableHlo.after_of_forall_not_mem (b := Proc.devRef .tc main_arg1) _ _ (List.forall_iff_forall_mem.mp (by host_writes hostOps1))).trans (keep2_1 m ρ c)
set_option maxHeartbeats 4000000 in
theorem in1_wl : V3 m ρ c main_v55 = Cert.ReferenceIdeal.ReadP.val_main_v41 (F := Ideal) (m ((c : Thread nD τ).loc main_arg2)) := by
  show StableHlo.after hostOps1 (W2 m ρ c) (Proc.devRef .tc main_v55) = _
  after_results
  rw [keep2_2 m ρ c]
  rfl
set_option maxHeartbeats 4000000 in
theorem in1_bl : V3 m ρ c main_v58 = Cert.ReferenceIdeal.SageRef.biasRow (Cert.ReferenceIdeal.ReadP.val_main_v43 (F := Ideal) (m ((c : Thread nD τ).loc main_arg3))) shapeCasts_S128_S1x128 := by
  show StableHlo.after hostOps1 (W2 m ρ c) (Proc.devRef .tc main_v58) = _
  after_results
  rw [keep2_3 m ρ c]
  rfl
set_option maxHeartbeats 4000000 in
theorem in1_wr : V3 m ρ c main_v60 = Cert.ReferenceIdeal.ReadP.val_main_v45 (F := Ideal) (m ((c : Thread nD τ).loc main_arg4)) := by
  show StableHlo.after hostOps1 (W2 m ρ c) (Proc.devRef .tc main_v60) = _
  after_results
  rw [keep2_4 m ρ c]
  rfl
set_option maxHeartbeats 4000000 in
theorem out1 : W4 m ρ c (Proc.devRef .tc main_v61) = Cert.ReferenceIdeal.ReadP.val_main_v71 (F := Ideal) (m ((c : Thread nD τ).loc main_arg1)) (m ((c : Thread nD τ).loc main_arg2)) (m ((c : Thread nD τ).loc main_arg3)) (m ((c : Thread nD τ).loc main_arg4)) (m ((c : Thread nD τ).loc main_arg8)) := by
  refine (W4_arr m ρ c 6).trans ((whole1 (V3 m ρ) c).trans ?_)
  rw [in1_agg m ρ c, in1_inv m ρ c, in1_x m ρ c, in1_wl m ρ c, in1_bl m ρ c, in1_wr m ρ c]
  exact ((stage1 _ _ _ _ _).trans (Cert.ReferenceIdeal.SageRef.refLayer_eq _ _ _ _ _ _ _ _)).symm

theorem prev2 : W4 m ρ c (Proc.devRef .tc main_v30) = Cert.ReferenceIdeal.ReadP.val_main_v35 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  rw [W4_of_ne m ρ c main_v30 (by decide)]
  exact (StableHlo.after_of_forall_not_mem (b := Proc.devRef .tc main_v30) _ _ (List.forall_iff_forall_mem.mp (by host_writes hostOps1))).trans (out0 m ρ c)
set_option maxHeartbeats 4000000 in
theorem in2_agg : V5 m ρ c main_v75 = Cert.ReferenceIdeal.ReadP.val_main_v91 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  show StableHlo.after hostOps2 (W4 m ρ c) (Proc.devRef .tc main_v75) = _
  after_results
  rw [keep4_7 m ρ c, prev2 m ρ c]
  rfl
set_option maxHeartbeats 4000000 in
theorem in2_inv : V5 m ρ c main_v84 = Cert.ReferenceIdeal.SageRef.recipCol (Cert.ReferenceIdeal.ReadP.val_main_v95 (F := Ideal) (m ((c : Thread nD τ).loc main_arg7))) shapeCasts_S50000_S50000x1 := by
  show StableHlo.after hostOps2 (W4 m ρ c) (Proc.devRef .tc main_v84) = _
  after_results
  rw [keep4_7 m ρ c]
  rfl
theorem in2_x : V5 m ρ c main_v30 = (Cert.ReferenceIdeal.ReadP.val_main_v35 (F := Ideal) (m ((c : Thread nD τ).loc main_arg0)) (m ((c : Thread nD τ).loc main_arg2)) (m ((c : Thread nD τ).loc main_arg3)) (m ((c : Thread nD τ).loc main_arg4)) (m ((c : Thread nD τ).loc main_arg7))) :=
  (StableHlo.after_of_forall_not_mem (b := Proc.devRef .tc main_v30) _ _ (List.forall_iff_forall_mem.mp (by host_writes hostOps2))).trans (prev2 m ρ c)
set_option maxHeartbeats 4000000 in
theorem in2_wl : V5 m ρ c main_v86 = Cert.ReferenceIdeal.ReadP.val_main_v77 (F := Ideal) (m ((c : Thread nD τ).loc main_arg2)) := by
  show StableHlo.after hostOps2 (W4 m ρ c) (Proc.devRef .tc main_v86) = _
  after_results
  rw [keep4_2 m ρ c]
  rfl
set_option maxHeartbeats 4000000 in
theorem in2_bl : V5 m ρ c main_v89 = Cert.ReferenceIdeal.SageRef.biasRow (Cert.ReferenceIdeal.ReadP.val_main_v79 (F := Ideal) (m ((c : Thread nD τ).loc main_arg3))) shapeCasts_S128_S1x128 := by
  show StableHlo.after hostOps2 (W4 m ρ c) (Proc.devRef .tc main_v89) = _
  after_results
  rw [keep4_3 m ρ c]
  rfl
set_option maxHeartbeats 4000000 in
theorem in2_wr : V5 m ρ c main_v91 = Cert.ReferenceIdeal.ReadP.val_main_v81 (F := Ideal) (m ((c : Thread nD τ).loc main_arg4)) := by
  show StableHlo.after hostOps2 (W4 m ρ c) (Proc.devRef .tc main_v91) = _
  after_results
  rw [keep4_4 m ρ c]
  rfl
set_option maxHeartbeats 4000000 in
theorem out2 : W6 m ρ c (Proc.devRef .tc main_v92) = Cert.ReferenceIdeal.ReadP.val_main_v107 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  refine (W6_arr m ρ c 6).trans ((whole2 (V5 m ρ) c).trans ?_)
  rw [in2_agg m ρ c, in2_inv m ρ c, in2_x m ρ c, in2_wl m ρ c, in2_bl m ρ c, in2_wr m ρ c]
  exact ((stage2 _ _ _ _ _).trans (Cert.ReferenceIdeal.SageRef.refLayer_eq _ _ _ _ _ _ _ _)).symm

theorem prev3 : W6 m ρ c (Proc.devRef .tc main_v61) = Cert.ReferenceIdeal.ReadP.val_main_v71 (F := Ideal) (m ((c : Thread nD τ).loc main_arg1)) (m ((c : Thread nD τ).loc main_arg2)) (m ((c : Thread nD τ).loc main_arg3)) (m ((c : Thread nD τ).loc main_arg4)) (m ((c : Thread nD τ).loc main_arg8)) := by
  rw [W6_of_ne m ρ c main_v61 (by decide)]
  exact (StableHlo.after_of_forall_not_mem (b := Proc.devRef .tc main_v61) _ _ (List.forall_iff_forall_mem.mp (by host_writes hostOps2))).trans (out1 m ρ c)
set_option maxHeartbeats 4000000 in
theorem in3_agg : V7 m ρ c main_v106 = Cert.ReferenceIdeal.ReadP.val_main_v127 (F := Ideal) (m ((c : Thread nD τ).loc main_arg1)) (m ((c : Thread nD τ).loc main_arg2)) (m ((c : Thread nD τ).loc main_arg3)) (m ((c : Thread nD τ).loc main_arg4)) (m ((c : Thread nD τ).loc main_arg8)) := by
  show StableHlo.after hostOps3 (W6 m ρ c) (Proc.devRef .tc main_v106) = _
  after_results
  rw [keep6_8 m ρ c, prev3 m ρ c]
  rfl
set_option maxHeartbeats 4000000 in
theorem in3_inv : V7 m ρ c main_v115 = Cert.ReferenceIdeal.SageRef.recipCol (Cert.ReferenceIdeal.ReadP.val_main_v131 (F := Ideal) (m ((c : Thread nD τ).loc main_arg8))) shapeCasts_S50000_S50000x1 := by
  show StableHlo.after hostOps3 (W6 m ρ c) (Proc.devRef .tc main_v115) = _
  after_results
  rw [keep6_8 m ρ c]
  rfl
theorem in3_x : V7 m ρ c main_v61 = (Cert.ReferenceIdeal.ReadP.val_main_v71 (F := Ideal) (m ((c : Thread nD τ).loc main_arg1)) (m ((c : Thread nD τ).loc main_arg2)) (m ((c : Thread nD τ).loc main_arg3)) (m ((c : Thread nD τ).loc main_arg4)) (m ((c : Thread nD τ).loc main_arg8))) :=
  (StableHlo.after_of_forall_not_mem (b := Proc.devRef .tc main_v61) _ _ (List.forall_iff_forall_mem.mp (by host_writes hostOps3))).trans (prev3 m ρ c)
set_option maxHeartbeats 4000000 in
theorem in3_wl : V7 m ρ c main_v117 = Cert.ReferenceIdeal.ReadP.val_main_v113 (F := Ideal) (m ((c : Thread nD τ).loc main_arg2)) := by
  show StableHlo.after hostOps3 (W6 m ρ c) (Proc.devRef .tc main_v117) = _
  after_results
  rw [keep6_2 m ρ c]
  rfl
set_option maxHeartbeats 4000000 in
theorem in3_bl : V7 m ρ c main_v120 = Cert.ReferenceIdeal.SageRef.biasRow (Cert.ReferenceIdeal.ReadP.val_main_v115 (F := Ideal) (m ((c : Thread nD τ).loc main_arg3))) shapeCasts_S128_S1x128 := by
  show StableHlo.after hostOps3 (W6 m ρ c) (Proc.devRef .tc main_v120) = _
  after_results
  rw [keep6_3 m ρ c]
  rfl
set_option maxHeartbeats 4000000 in
theorem in3_wr : V7 m ρ c main_v122 = Cert.ReferenceIdeal.ReadP.val_main_v117 (F := Ideal) (m ((c : Thread nD τ).loc main_arg4)) := by
  show StableHlo.after hostOps3 (W6 m ρ c) (Proc.devRef .tc main_v122) = _
  after_results
  rw [keep6_4 m ρ c]
  rfl
set_option maxHeartbeats 4000000 in
theorem out3 : W8 m ρ c (Proc.devRef .tc main_v123) = Cert.ReferenceIdeal.ReadP.val_main_v143 (F := Ideal) (m ((c : Thread nD τ).loc main_arg1)) (m ((c : Thread nD τ).loc main_arg2)) (m ((c : Thread nD τ).loc main_arg3)) (m ((c : Thread nD τ).loc main_arg4)) (m ((c : Thread nD τ).loc main_arg8)) := by
  refine (W8_arr m ρ c 6).trans ((whole3 (V7 m ρ) c).trans ?_)
  rw [in3_agg m ρ c, in3_inv m ρ c, in3_x m ρ c, in3_wl m ρ c, in3_bl m ρ c, in3_wr m ρ c]
  exact ((stage3 _ _ _ _ _).trans (Cert.ReferenceIdeal.SageRef.refLayer_eq _ _ _ _ _ _ _ _)).symm

theorem prev4 : W8 m ρ c (Proc.devRef .tc main_v92) = Cert.ReferenceIdeal.ReadP.val_main_v107 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  rw [W8_of_ne m ρ c main_v92 (by decide)]
  exact (StableHlo.after_of_forall_not_mem (b := Proc.devRef .tc main_v92) _ _ (List.forall_iff_forall_mem.mp (by host_writes hostOps3))).trans (out2 m ρ c)
set_option maxHeartbeats 4000000 in
theorem in4_agg : V9 m ρ c main_v137 = Cert.ReferenceIdeal.ReadP.val_main_v163 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  show StableHlo.after hostOps4 (W8 m ρ c) (Proc.devRef .tc main_v137) = _
  after_results
  rw [keep8_7 m ρ c, prev4 m ρ c]
  rfl
set_option maxHeartbeats 4000000 in
theorem in4_inv : V9 m ρ c main_v146 = Cert.ReferenceIdeal.SageRef.recipCol (Cert.ReferenceIdeal.ReadP.val_main_v167 (F := Ideal) (m ((c : Thread nD τ).loc main_arg7))) shapeCasts_S50000_S50000x1 := by
  show StableHlo.after hostOps4 (W8 m ρ c) (Proc.devRef .tc main_v146) = _
  after_results
  rw [keep8_7 m ρ c]
  rfl
theorem in4_x : V9 m ρ c main_v92 = (Cert.ReferenceIdeal.ReadP.val_main_v107 (F := Ideal) (m ((c : Thread nD τ).loc main_arg0)) (m ((c : Thread nD τ).loc main_arg2)) (m ((c : Thread nD τ).loc main_arg3)) (m ((c : Thread nD τ).loc main_arg4)) (m ((c : Thread nD τ).loc main_arg7))) :=
  (StableHlo.after_of_forall_not_mem (b := Proc.devRef .tc main_v92) _ _ (List.forall_iff_forall_mem.mp (by host_writes hostOps4))).trans (prev4 m ρ c)
set_option maxHeartbeats 4000000 in
theorem in4_wl : V9 m ρ c main_v148 = Cert.ReferenceIdeal.ReadP.val_main_v149 (F := Ideal) (m ((c : Thread nD τ).loc main_arg2)) := by
  show StableHlo.after hostOps4 (W8 m ρ c) (Proc.devRef .tc main_v148) = _
  after_results
  rw [keep8_2 m ρ c]
  rfl
set_option maxHeartbeats 4000000 in
theorem in4_bl : V9 m ρ c main_v151 = Cert.ReferenceIdeal.SageRef.biasRow (Cert.ReferenceIdeal.ReadP.val_main_v151 (F := Ideal) (m ((c : Thread nD τ).loc main_arg3))) shapeCasts_S128_S1x128 := by
  show StableHlo.after hostOps4 (W8 m ρ c) (Proc.devRef .tc main_v151) = _
  after_results
  rw [keep8_3 m ρ c]
  rfl
set_option maxHeartbeats 4000000 in
theorem in4_wr : V9 m ρ c main_v153 = Cert.ReferenceIdeal.ReadP.val_main_v153 (F := Ideal) (m ((c : Thread nD τ).loc main_arg4)) := by
  show StableHlo.after hostOps4 (W8 m ρ c) (Proc.devRef .tc main_v153) = _
  after_results
  rw [keep8_4 m ρ c]
  rfl
set_option maxHeartbeats 4000000 in
theorem out4 : W10 m ρ c (Proc.devRef .tc main_v154) = Cert.ReferenceIdeal.ReadP.val_main_v179 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  refine (W10_arr m ρ c 6).trans ((whole4 (V9 m ρ) c).trans ?_)
  rw [in4_agg m ρ c, in4_inv m ρ c, in4_x m ρ c, in4_wl m ρ c, in4_bl m ρ c, in4_wr m ρ c]
  exact ((stage4 _ _ _ _ _).trans (Cert.ReferenceIdeal.SageRef.refLayer_eq _ _ _ _ _ _ _ _)).symm

theorem prev5 : W10 m ρ c (Proc.devRef .tc main_v123) = Cert.ReferenceIdeal.ReadP.val_main_v143 (F := Ideal) (m ((c : Thread nD τ).loc main_arg1)) (m ((c : Thread nD τ).loc main_arg2)) (m ((c : Thread nD τ).loc main_arg3)) (m ((c : Thread nD τ).loc main_arg4)) (m ((c : Thread nD τ).loc main_arg8)) := by
  rw [W10_of_ne m ρ c main_v123 (by decide)]
  exact (StableHlo.after_of_forall_not_mem (b := Proc.devRef .tc main_v123) _ _ (List.forall_iff_forall_mem.mp (by host_writes hostOps4))).trans (out3 m ρ c)
set_option maxHeartbeats 4000000 in
theorem in5_agg : V11 m ρ c main_v168 = Cert.ReferenceIdeal.ReadP.val_main_v199 (F := Ideal) (m ((c : Thread nD τ).loc main_arg1)) (m ((c : Thread nD τ).loc main_arg2)) (m ((c : Thread nD τ).loc main_arg3)) (m ((c : Thread nD τ).loc main_arg4)) (m ((c : Thread nD τ).loc main_arg8)) := by
  show StableHlo.after hostOps5 (W10 m ρ c) (Proc.devRef .tc main_v168) = _
  after_results
  rw [keep10_8 m ρ c, prev5 m ρ c]
  rfl
set_option maxHeartbeats 4000000 in
theorem in5_inv : V11 m ρ c main_v177 = Cert.ReferenceIdeal.SageRef.recipCol (Cert.ReferenceIdeal.ReadP.val_main_v203 (F := Ideal) (m ((c : Thread nD τ).loc main_arg8))) shapeCasts_S50000_S50000x1 := by
  show StableHlo.after hostOps5 (W10 m ρ c) (Proc.devRef .tc main_v177) = _
  after_results
  rw [keep10_8 m ρ c]
  rfl
theorem in5_x : V11 m ρ c main_v123 = (Cert.ReferenceIdeal.ReadP.val_main_v143 (F := Ideal) (m ((c : Thread nD τ).loc main_arg1)) (m ((c : Thread nD τ).loc main_arg2)) (m ((c : Thread nD τ).loc main_arg3)) (m ((c : Thread nD τ).loc main_arg4)) (m ((c : Thread nD τ).loc main_arg8))) :=
  (StableHlo.after_of_forall_not_mem (b := Proc.devRef .tc main_v123) _ _ (List.forall_iff_forall_mem.mp (by host_writes hostOps5))).trans (prev5 m ρ c)
set_option maxHeartbeats 4000000 in
theorem in5_wl : V11 m ρ c main_v179 = Cert.ReferenceIdeal.ReadP.val_main_v185 (F := Ideal) (m ((c : Thread nD τ).loc main_arg2)) := by
  show StableHlo.after hostOps5 (W10 m ρ c) (Proc.devRef .tc main_v179) = _
  after_results
  rw [keep10_2 m ρ c]
  rfl
set_option maxHeartbeats 4000000 in
theorem in5_bl : V11 m ρ c main_v182 = Cert.ReferenceIdeal.SageRef.biasRow (Cert.ReferenceIdeal.ReadP.val_main_v187 (F := Ideal) (m ((c : Thread nD τ).loc main_arg3))) shapeCasts_S128_S1x128 := by
  show StableHlo.after hostOps5 (W10 m ρ c) (Proc.devRef .tc main_v182) = _
  after_results
  rw [keep10_3 m ρ c]
  rfl
set_option maxHeartbeats 4000000 in
theorem in5_wr : V11 m ρ c main_v184 = Cert.ReferenceIdeal.ReadP.val_main_v189 (F := Ideal) (m ((c : Thread nD τ).loc main_arg4)) := by
  show StableHlo.after hostOps5 (W10 m ρ c) (Proc.devRef .tc main_v184) = _
  after_results
  rw [keep10_4 m ρ c]
  rfl
set_option maxHeartbeats 4000000 in
theorem out5 : W12 m ρ c (Proc.devRef .tc main_v185) = Cert.ReferenceIdeal.ReadP.val_main_v215 (F := Ideal) (m ((c : Thread nD τ).loc main_arg1)) (m ((c : Thread nD τ).loc main_arg2)) (m ((c : Thread nD τ).loc main_arg3)) (m ((c : Thread nD τ).loc main_arg4)) (m ((c : Thread nD τ).loc main_arg8)) := by
  refine (W12_arr m ρ c 6).trans ((whole5 (V11 m ρ) c).trans ?_)
  rw [in5_agg m ρ c, in5_inv m ρ c, in5_x m ρ c, in5_wl m ρ c, in5_bl m ρ c, in5_wr m ρ c]
  exact ((stage5 _ _ _ _ _).trans (Cert.ReferenceIdeal.SageRef.refLayer_eq _ _ _ _ _ _ _ _)).symm

/-! ## The result -/

theorem prev6 : W12 m ρ c (Proc.devRef .tc main_v154) = Cert.ReferenceIdeal.ReadP.val_main_v179 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  rw [W12_of_ne m ρ c main_v154 (by decide)]
  exact (StableHlo.after_of_forall_not_mem (b := Proc.devRef .tc main_v154) _ _ (List.forall_iff_forall_mem.mp (by host_writes hostOps5))).trans (out4 m ρ c)

set_option maxHeartbeats 4000000 in
/-- The kernel's result buffer at the last boundary is the reference's result stage of the same arguments. -/
theorem result_eq : W13 m ρ c (Proc.devRef .tc main_v214)
    = Cert.ReferenceIdeal.ReadP.val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps6 (W12 m ρ c) (Proc.devRef .tc main_v214) = _
  after_results
  rw [prev6 m ρ c, out5 m ρ c, keep12_5 m ρ c, keep12_6 m ρ c, keep12_9 m ρ c, keep12_10 m ρ c]
  rfl

end Cert.KernelIdeal.SageValue

end
-- ==== Proof.lean ====
/-
  A three-layer, two-node-type SAGE network with mean pooling and a final linear map: six kernel calls against the
  plain reference, equal on the extended reals.

  Per layer and node type both programs gather neighbour rows, scatter-add them per destination node, count
  neighbours, and then compute  relu( mean · wl + b + x · wr )  with  mean = (neighbour sum) / max(count, 1).
  The reference divides; the kernel receives the reciprocal  1 / max(count, 1)  as a column and multiplies inside
  the call, and adds the bias last. The two agree entry by entry because the clamped count is at least one — so it is
  not zero, and a product with its reciprocal is the quotient by it, at finite and infinite entries alike — and
  because addition on the extended reals is commutative and associative. Each call writes 25 row blocks that tile
  its output, every block the restriction of that one layer function of the whole input arrays. Everything outside
  the calls — gather, scatter-add, slices, reshapes, pooling, the last linear map — is the same operation in both
  programs applied to equal operands. The precondition is not used by the value claim.

  The three frames are the generated ones (the reference's is its generated run with the result dropped); the
  idealization rewrote nothing, so there is nothing to preserve.
-/
import proofs.«120746_j29394756174084_1_alg».proof.Defs
import proofs.«120746_j29394756174084_1_alg».proof.Proof.Gen.Kernel
import proofs.«120746_j29394756174084_1_alg».proof.Proof.Gen.Kernel.Skeleton
import proofs.«120746_j29394756174084_1_alg».proof.Proof.Gen.Kernel.Launch
import proofs.«120746_j29394756174084_1_alg».proof.Proof.Gen.Kernel.Points
import proofs.«120746_j29394756174084_1_alg».proof.Proof.Gen.Kernel.Frame
import proofs.«120746_j29394756174084_1_alg».proof.Proof.Gen.KernelIdeal
import proofs.«120746_j29394756174084_1_alg».proof.Proof.Gen.KernelIdeal.Skeleton
import proofs.«120746_j29394756174084_1_alg».proof.Proof.Gen.KernelIdeal.Launch
import proofs.«120746_j29394756174084_1_alg».proof.Proof.Gen.KernelIdeal.Points
import proofs.«120746_j29394756174084_1_alg».proof.Proof.Gen.KernelIdeal.Frame
import proofs.«120746_j29394756174084_1_alg».proof.Proof.Gen.ReferenceIdeal
import proofs.«120746_j29394756174084_1_alg».proof.Proof.Gen.Pre_finite_inputs
import proofs.«120746_j29394756174084_1_alg».proof.Proof.RefRunP
import proofs.«120746_j29394756174084_1_alg».proof.Proof.RefReadP
import proofs.«120746_j29394756174084_1_alg».proof.Proof.KernelRun
import proofs.«120746_j29394756174084_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no call: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at one and the same function of the kernel's arguments: the reference's result
    stage. The kernel's last boundary holds it; the reference's run states it of its own arguments, which agree. -/
theorem algebraic : Cert.algebraic_KernelIdeal_ReferenceIdeal := by
  intro m ρ m' ρ' _ hagree
  refine ⟨fun c => Cert.ReferenceIdeal.ReadP.val_main_v244 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.SageValue.result_eq m ρ c), (h c).2⟩)
      (Cert.KernelIdeal.SageValue.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v244_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
